-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000x8 : Shape := ⟨2, ![1600000, 8]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x256 .f32) (main_arg1 : IVec S2x1600000 32) (main_arg2 : FVec F S1600000x8 .f32) (main_arg3 : FVec F S128x256 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000x8 .f32 := Host.absf main_arg2
  let main_cst_0 : FVec F S_ .f32 := constant S_ .f32 0x7F800000#32
  let main_v5 : FVec F S1600000x8 .f32 := broadcastInDim S1600000x8 ![] bcast_S_S1600000x8 main_cst_0
  let main_v6 : IVec S1600000x8 1 := cmpf .olt main_v4 main_v5
  let main_c_1 : IVec S_ 1 := constantI S_ 1 1#1
  let main_v7 : IVec S_ 1 := (fun x v => Host.reduce IntOp.andi x v reducesTo_S1600000x8_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x256 : Shape := ⟨2, ![100000, 256]⟩
abbrev S2x1600000 : Shape := ⟨2, ![2, 1600000]⟩
abbrev S1600000x8 : Shape := ⟨2, ![1600000, 8]⟩
abbrev S128x256 : Shape := ⟨2, ![128, 256]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1700000 : Shape := ⟨1, ![1700000]⟩
abbrev S1700000x1 : Shape := ⟨2, ![1700000, 1]⟩
abbrev S256 : Shape := ⟨1, ![256]⟩
abbrev S1x128 : Shape := ⟨2, ![1, 128]⟩
abbrev S1x256 : Shape := ⟨2, ![1, 256]⟩
abbrev S100000x128 : Shape := ⟨2, ![100000, 128]⟩
abbrev S4000x256 : Shape := ⟨2, ![4000, 256]⟩
abbrev S4000x128 : Shape := ⟨2, ![4000, 128]⟩
abbrev S256x128 : Shape := ⟨2, ![256, 128]⟩
abbrev S1700000x128 : Shape := ⟨2, ![1700000, 128]⟩

abbrev nBuf : Space → Nat
  | .hbm => 124
  | .vmem => 28
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000x8, .f32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S1600000, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1600000, .f32⟩
  | .hbm, ⟨24, _⟩ => ⟨S1600000, .f32⟩
  | .hbm, ⟨25, _⟩ => ⟨S100000, .i32⟩
  | .hbm, ⟨26, _⟩ => ⟨S1700000, .i32⟩
  | .hbm, ⟨27, _⟩ => ⟨S1700000, .i32⟩
  | .hbm, ⟨28, _⟩ => ⟨S_, .f32⟩
  | .hbm, ⟨29, _⟩ => ⟨S100000, .f32⟩
  | .hbm, ⟨30, _⟩ => ⟨S1700000, .f32⟩
  | .hbm, ⟨31, _⟩ => ⟨S_, .f32⟩
  | .hbm, ⟨32, _⟩ => ⟨S100000, .f32⟩
  | .hbm, ⟨33, _⟩ => ⟨S1700000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .i1⟩
  | .hbm, ⟨38, _⟩ => ⟨S_, .f32⟩
  | .hbm, ⟨39, _⟩ => ⟨S100000, .f32⟩
  | .hbm, ⟨40, _⟩ => ⟨S100000, .i1⟩
  | .hbm, ⟨41, _⟩ => ⟨S_, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000, .f32⟩
  | .hbm, ⟨46, _⟩ => ⟨S_, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000, .f32⟩
  | .hbm, ⟨59, _⟩ => ⟨S1700000, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000, .f32⟩
  | .hbm, ⟨69, _⟩ => ⟨S1700000, .f32⟩
  | .hbm, ⟨70, _⟩ => ⟨S_, .f32⟩
  | .hbm, ⟨71, _⟩ => ⟨S256, .f32⟩
  | .hbm, ⟨72, _⟩ => ⟨S1x128, .f32⟩
  | .hbm, ⟨73, _⟩ => ⟨S1x256, .f32⟩
  | .hbm, ⟨74, _⟩ => ⟨S100000x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S1x128, .f32⟩
  | .hbm, ⟨80, _⟩ => ⟨S1x128, .f32⟩
  | .hbm, ⟨81, _⟩ => ⟨S100000x128, .bf16⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x128, .bf16⟩
  | .hbm, ⟨91, _⟩ => ⟨S1700000x128, .f32⟩
  | .hbm, ⟨92, _⟩ => ⟨S1700000x1, .f32⟩
  | .hbm, ⟨93, _⟩ => ⟨S1700000x128, .f32⟩
  | .hbm, ⟨94, _⟩ => ⟨S1700000x128, .f32⟩
  | .hbm, ⟨95, _⟩ => ⟨S_, .f32⟩
  | .hbm, ⟨96, _⟩ => ⟨S100000x128, .f32⟩
  | .hbm, ⟨97, _⟩ => ⟨S1700000x1, .i32⟩
  | .hbm, ⟨98, _⟩ => ⟨S100000x128, .f32⟩
  | .hbm, ⟨99, _⟩ => ⟨S_, .f32⟩
  | .hbm, ⟨100, _⟩ => ⟨S128, .f32⟩
  | .hbm, ⟨101, _⟩ => ⟨S1x128, .f32⟩
  | .hbm, ⟨102, _⟩ => ⟨S1x128, .f32⟩
  | .hbm, ⟨103, _⟩ => ⟨S100000x128, .bf16⟩
  | .hbm, ⟨104, _⟩ => ⟨S_, .i32⟩
  | .hbm, ⟨105, _⟩ => ⟨S1700000, .i32⟩
  | .hbm, ⟨106, _⟩ => ⟨S1700000, .i1⟩
  | .hbm, ⟨107, _⟩ => ⟨S_, .i32⟩
  | .hbm, ⟨108, _⟩ => ⟨S1700000, .i32⟩
  | .hbm, ⟨109, _⟩ => ⟨S1700000, .i32⟩
  | .hbm, ⟨110, _⟩ => ⟨S1700000, .i32⟩
  | .hbm, ⟨111, _⟩ => ⟨S1700000x1, .i32⟩
  | .hbm, ⟨112, _⟩ => ⟨S1700000x128, .bf16⟩
  | .hbm, ⟨113, _⟩ => ⟨S1700000x128, .f32⟩
  | .hbm, ⟨114, _⟩ => ⟨S1700000x1, .f32⟩
  | .hbm, ⟨115, _⟩ => ⟨S1700000x128, .f32⟩
  | .hbm, ⟨116, _⟩ => ⟨S1700000x128, .f32⟩
  | .hbm, ⟨117, _⟩ => ⟨S_, .f32⟩
  | .hbm, ⟨118, _⟩ => ⟨S100000x128, .f32⟩
  | .hbm, ⟨119, _⟩ => ⟨S1700000x1, .i32⟩
  | .hbm, ⟨120, _⟩ => ⟨S100000x128, .f32⟩
  | .hbm, ⟨121, _⟩ => ⟨S1x128, .f32⟩
  | .hbm, ⟨122, _⟩ => ⟨S1x128, .f32⟩
  | .hbm, ⟨123, _⟩ => ⟨S100000x128, .f32⟩
  | .local _ .vmem, ⟨0, _⟩ => ⟨S4000x256, .f32⟩
  | .local _ .vmem, ⟨1, _⟩ => ⟨S4000x256, .f32⟩
  | .local _ .vmem, ⟨2, _⟩ => ⟨S128x256, .f32⟩
  | .local _ .vmem, ⟨3, _⟩ => ⟨S1x128, .f32⟩
  | .local _ .vmem, ⟨4, _⟩ => ⟨S1x256, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S4000x128, .bf16⟩
  | .local _ .vmem, ⟨13, _⟩ => ⟨S4000x128, .bf16⟩
  | .local _ .vmem, ⟨14, _⟩ => ⟨S4000x128, .f32⟩
  | .local _ .vmem, ⟨15, _⟩ => ⟨S4000x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S4000x128, .bf16⟩
  | .local _ .vmem, ⟨20, _⟩ => ⟨S4000x128, .bf16⟩
  | .local _ .vmem, ⟨21, _⟩ => ⟨S4000x128, .f32⟩
  | .local _ .vmem, ⟨22, _⟩ => ⟨S4000x128, .f32⟩
  | .local _ .vmem, ⟨23, _⟩ => ⟨S128x128, .f32⟩
  | .local _ .vmem, ⟨24, _⟩ => ⟨S1x128, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_v21 : Ref sig .tc := ⟨.hbm, 44, rfl⟩
abbrev main_v22 : Ref sig .tc := ⟨.hbm, 45, rfl⟩
abbrev main_cst_6 : Ref sig .tc := ⟨.hbm, 46, rfl⟩
abbrev main_call2_v0 : Ref sig .tc := ⟨.hbm, 47, rfl⟩
abbrev main_call2_v1 : Ref sig .tc := ⟨.hbm, 48, rfl⟩
abbrev main_v23 : Ref sig .tc := ⟨.hbm, 49, rfl⟩
abbrev main_c : Ref sig .tc := ⟨.hbm, 50, rfl⟩
abbrev main_v24 : Ref sig .tc := ⟨.hbm, 51, rfl⟩
abbrev main_v25 : Ref sig .tc := ⟨.hbm, 52, rfl⟩
abbrev main_c_7 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_8 : Ref sig .tc := ⟨.hbm, 60, rfl⟩
abbrev main_v32 : Ref sig .tc := ⟨.hbm, 61, rfl⟩
abbrev main_v33 : Ref sig .tc := ⟨.hbm, 62, rfl⟩
abbrev main_c_9 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_10 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_cst_12 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_13 : Ref sig .tc := ⟨.hbm, 82, rfl⟩
abbrev main_v49 : Ref sig .tc := ⟨.hbm, 83, rfl⟩
abbrev main_v50 : Ref sig .tc := ⟨.hbm, 84, rfl⟩
abbrev main_c_14 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_15 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_16 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_17 : Ref sig .tc := ⟨.hbm, 104, rfl⟩
abbrev main_v67 : Ref sig .tc := ⟨.hbm, 105, rfl⟩
abbrev main_v68 : Ref sig .tc := ⟨.hbm, 106, rfl⟩
abbrev main_c_18 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_19 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S1600000x8_S1600000_d1 : S1600000x8.ReducesTo [1] S1600000
  h_S_ : 0 < S_.numel
  reducesTo_S1600000_S_d0 : S1600000.ReducesTo [0] S_
  bcast_S_S1600000 : S_.BroadcastsInDim S1600000 (![] : Fin 0 → Fin S1600000.rank)
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S_S256 : S_.BroadcastsInDim S256 (![] : Fin 0 → Fin S256.rank)
  shapeCasts_S128_S1x128 : S128.ShapeCasts S1x128
  shapeCasts_S256_S1x256 : S256.ShapeCasts S1x256
  inb_S4000x256_S4000x256_0_0 : ∀ a, (![0, 0] : Fin 2 → Nat) a + S4000x256.size a ≤ S4000x256.size a
  h_S4000x256 : 0 < S4000x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S128 : S_.BroadcastsInDim S128 (![] : Fin 0 → Fin S128.rank)
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  packedbf16_S4000x128_S4000x128_0_0 : (Rect.unit (s := S4000x128) ![0, 0] S4000x128.size inb_S4000x128_S4000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x256_S256x128_S4000x128_1_0_0_1_n_n_wf : DotDims.WF S4000x256 S256x128 S4000x128 [1] [0] [0] [1] [] []
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .bf16 = 32 ∨ (Rect.block (s := S100000x128) S4000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S100000x128.size a
  hwx2_4 : ∀ i : grid2.Coords, EltTy.bits .bf16 = 32 ∨ (Rect.block (s := S100000x128) S4000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S100000x128.size a
  hwx3_4 : ∀ i : grid3.Coords, EltTy.bits .f32 = 32 ∨ (Rect.block (s := S100000x128) S4000x128.size (cc3_transform_4 i) (hinb3_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v62) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v80) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v83) S4000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000x8 : Shape := ⟨2, ![1600000, 8]⟩
abbrev S128x256 : Shape := ⟨2, ![128, 256]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S256x128 : Shape := ⟨2, ![256, 128]⟩
abbrev S100000x128 : Shape := ⟨2, ![100000, 128]⟩
abbrev S1x128 : Shape := ⟨2, ![1, 128]⟩
abbrev S100000 : Shape := ⟨1, ![100000]⟩
abbrev S1700000 : Shape := ⟨1, ![1700000]⟩
abbrev S1700000x1 : Shape := ⟨2, ![1700000, 1]⟩
abbrev S1700000x128 : Shape := ⟨2, ![1700000, 128]⟩

abbrev nBuf : Space → Nat
  | .hbm => 173
  | .vmem => 0
  | .smem => 0
  | _ => 0

abbrev hbmTy0_0 (i : Nat) : BufTy := match i % 128 with
  | 0 => ⟨S100000x256, .f32⟩
  | 1 => ⟨S2x1600000, .i32⟩
  | 2 => ⟨S1600000x8, .f32⟩
  | 3 => ⟨S128x256, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S1600000, .f32⟩
  | 18 => ⟨S_, .f32⟩
  | 19 => ⟨S_, .f32⟩
  | 20 => ⟨S_, .f32⟩
  | 21 => ⟨S_, .f32⟩
  | 22 => ⟨S_, .f32⟩
  | 23 => ⟨S1600000, .f32⟩
  | 24 => ⟨S1600000, .f32⟩
  | 25 => ⟨S256x128, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S100000, .i32⟩
  | 34 => ⟨S1700000, .i32⟩
  | 35 => ⟨S1700000, .i32⟩
  | 36 => ⟨S_, .f32⟩
  | 37 => ⟨S100000, .f32⟩
  | 38 => ⟨S1700000, .f32⟩
  | 39 => ⟨S_, .f32⟩
  | 40 => ⟨S100000, .f32⟩
  | 41 => ⟨S1700000x1, .i32⟩
  | 42 => ⟨S100000, .f32⟩
  | 43 => ⟨S_, .f32⟩
  | 44 => ⟨S100000, .f32⟩
  | 45 => ⟨S100000, .i1⟩
  | 46 => ⟨S_, .f32⟩
  | 47 => ⟨S100000, .f32⟩
  | 48 => ⟨S100000, .i1⟩
  | 49 => ⟨S_, .f32⟩
  | 50 => ⟨S_, .f32⟩
  | 51 => ⟨S100000, .f32⟩
  | 52 => ⟨S100000, .f32⟩
  | 53 => ⟨S100000, .f32⟩
  | 54 => ⟨S_, .f32⟩
  | 55 => ⟨S_, .f32⟩
  | 56 => ⟨S100000, .f32⟩
  | 57 => ⟨S100000, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000, .f32⟩
  | 67 => ⟨S1700000, .f32⟩
  | 68 => ⟨S_, .i32⟩
  | 69 => ⟨S1700000, .i32⟩
  | 70 => ⟨S1700000, .i1⟩
  | 71 => ⟨S_, .i32⟩
  | 72 => ⟨S1700000, .i32⟩
  | 73 => ⟨S1700000, .i32⟩
  | 74 => ⟨S1700000, .i32⟩
  | 75 => ⟨S1700000x1, .i32⟩
  | 76 => ⟨S1700000, .f32⟩
  | 77 => ⟨S1700000, .f32⟩
  | 78 => ⟨S128x128, .f32⟩
  | 79 => ⟨S100000x128, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000x128, .f32⟩
  | 89 => ⟨S1700000x1, .f32⟩
  | 90 => ⟨S1700000x128, .f32⟩
  | 91 => ⟨S1700000x128, .f32⟩
  | 92 => ⟨S_, .f32⟩
  | 93 => ⟨S100000x128, .f32⟩
  | 94 => ⟨S1700000x1, .i32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S100000, .i32⟩
  | 103 => ⟨S1700000, .i32⟩
  | 104 => ⟨S1700000, .i32⟩
  | 105 => ⟨S_, .f32⟩
  | 106 => ⟨S100000, .f32⟩
  | 107 => ⟨S1700000, .f32⟩
  | 108 => ⟨S_, .f32⟩
  | 109 => ⟨S100000, .f32⟩
  | 110 => ⟨S1700000x1, .i32⟩
  | 111 => ⟨S100000, .f32⟩
  | 112 => ⟨S_, .f32⟩
  | 113 => ⟨S100000, .f32⟩
  | 114 => ⟨S100000, .i1⟩
  | 115 => ⟨S_, .f32⟩
  | 116 => ⟨S100000, .f32⟩
  | 117 => ⟨S100000, .i1⟩
  | 118 => ⟨S_, .f32⟩
  | 119 => ⟨S_, .f32⟩
  | 120 => ⟨S100000, .f32⟩
  | 121 => ⟨S100000, .f32⟩
  | 122 => ⟨S100000, .f32⟩
  | 123 => ⟨S_, .f32⟩
  | 124 => ⟨S_, .f32⟩
  | 125 => ⟨S100000, .f32⟩
  | 126 => ⟨S100000, .f32⟩
  | 127 => ⟨S_, .i32⟩
  | _ => ⟨S100000x256, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000, .f32⟩
  | 8 => ⟨S1700000, .f32⟩
  | 9 => ⟨S_, .i32⟩
  | 10 => ⟨S1700000, .i32⟩
  | 11 => ⟨S1700000, .i1⟩
  | 12 => ⟨S_, .i32⟩
  | 13 => ⟨S1700000, .i32⟩
  | 14 => ⟨S1700000, .i32⟩
  | 15 => ⟨S1700000, .i32⟩
  | 16 => ⟨S1700000x1, .i32⟩
  | 17 => ⟨S1700000, .f32⟩
  | 18 => ⟨S1700000, .f32⟩
  | 19 => ⟨S128x128, .f32⟩
  | 20 => ⟨S100000x128, .f32⟩
  | 21 => ⟨S_, .i32⟩
  | 22 => ⟨S1700000, .i32⟩
  | 23 => ⟨S1700000, .i1⟩
  | 24 => ⟨S_, .i32⟩
  | 25 => ⟨S1700000, .i32⟩
  | 26 => ⟨S1700000, .i32⟩
  | 27 => ⟨S1700000, .i32⟩
  | 28 => ⟨S1700000x1, .i32⟩
  | 29 => ⟨S1700000x128, .f32⟩
  | 30 => ⟨S1700000x1, .f32⟩
  | 31 => ⟨S1700000x128, .f32⟩
  | 32 => ⟨S1700000x128, .f32⟩
  | 33 => ⟨S_, .f32⟩
  | 34 => ⟨S100000x128, .f32⟩
  | 35 => ⟨S1700000x1, .i32⟩
  | 36 => ⟨S100000x128, .f32⟩
  | 37 => ⟨S1x128, .f32⟩
  | 38 => ⟨S100000x128, .f32⟩
  | 39 => ⟨S100000x128, .f32⟩
  | 40 => ⟨S128x128, .f32⟩
  | 41 => ⟨S100000x128, .f32⟩
  | 42 => ⟨S1x128, .f32⟩
  | 43 => ⟨S100000x128, .f32⟩
  | 44 => ⟨S100000x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call1_cst : Ref sig .tc := ⟨.hbm, 30, rfl⟩
abbrev main_call1_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_call2_v0 : Ref sig .tc := ⟨.hbm, 50, rfl⟩
abbrev main_call2_v1 : Ref sig .tc := ⟨.hbm, 51, rfl⟩
abbrev main_v27 : Ref sig .tc := ⟨.hbm, 52, rfl⟩
abbrev main_v28 : Ref sig .tc := ⟨.hbm, 53, rfl⟩
abbrev main_cst_6 : Ref sig .tc := ⟨.hbm, 54, rfl⟩
abbrev main_call3_v0 : Ref sig .tc := ⟨.hbm, 55, rfl⟩
abbrev main_call3_v1 : Ref sig .tc := ⟨.hbm, 56, rfl⟩
abbrev main_v29 : Ref sig .tc := ⟨.hbm, 57, rfl⟩
abbrev main_c : Ref sig .tc := ⟨.hbm, 58, rfl⟩
abbrev main_v30 : Ref sig .tc := ⟨.hbm, 59, rfl⟩
abbrev main_v31 : Ref sig .tc := ⟨.hbm, 60, rfl⟩
abbrev main_c_7 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_8 : Ref sig .tc := ⟨.hbm, 68, rfl⟩
abbrev main_v38 : Ref sig .tc := ⟨.hbm, 69, rfl⟩
abbrev main_v39 : Ref sig .tc := ⟨.hbm, 70, rfl⟩
abbrev main_c_9 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_10 : Ref sig .tc := ⟨.hbm, 80, rfl⟩
abbrev main_v48 : Ref sig .tc := ⟨.hbm, 81, rfl⟩
abbrev main_v49 : Ref sig .tc := ⟨.hbm, 82, rfl⟩
abbrev main_c_11 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_12 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_call4_cst : Ref sig .tc := ⟨.hbm, 99, rfl⟩
abbrev main_call4_v0 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_13 : Ref sig .tc := ⟨.hbm, 105, rfl⟩
abbrev main_v68 : Ref sig .tc := ⟨.hbm, 106, rfl⟩
abbrev main_v69 : Ref sig .tc := ⟨.hbm, 107, rfl⟩
abbrev main_cst_14 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_15 : Ref sig .tc := ⟨.hbm, 112, rfl⟩
abbrev main_v73 : Ref sig .tc := ⟨.hbm, 113, rfl⟩
abbrev main_v74 : Ref sig .tc := ⟨.hbm, 114, rfl⟩
abbrev main_cst_16 : Ref sig .tc := ⟨.hbm, 115, rfl⟩
abbrev main_v75 : Ref sig .tc := ⟨.hbm, 116, rfl⟩
abbrev main_v76 : Ref sig .tc := ⟨.hbm, 117, rfl⟩
abbrev main_cst_17 : Ref sig .tc := ⟨.hbm, 118, rfl⟩
abbrev main_call5_v0 : Ref sig .tc := ⟨.hbm, 119, rfl⟩
abbrev main_call5_v1 : Ref sig .tc := ⟨.hbm, 120, rfl⟩
abbrev main_v77 : Ref sig .tc := ⟨.hbm, 121, rfl⟩
abbrev main_v78 : Ref sig .tc := ⟨.hbm, 122, rfl⟩
abbrev main_cst_18 : Ref sig .tc := ⟨.hbm, 123, rfl⟩
abbrev main_call6_v0 : Ref sig .tc := ⟨.hbm, 124, rfl⟩
abbrev main_call6_v1 : Ref sig .tc := ⟨.hbm, 125, rfl⟩
abbrev main_v79 : Ref sig .tc := ⟨.hbm, 126, rfl⟩
abbrev main_c_19 : Ref sig .tc := ⟨.hbm, 127, rfl⟩
abbrev main_v80 : Ref sig .tc := ⟨.hbm, 128, rfl⟩
abbrev main_v81 : Ref sig .tc := ⟨.hbm, 129, rfl⟩
abbrev main_c_20 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_c_21 : Ref sig .tc := ⟨.hbm, 137, rfl⟩
abbrev main_v88 : Ref sig .tc := ⟨.hbm, 138, rfl⟩
abbrev main_v89 : Ref sig .tc := ⟨.hbm, 139, rfl⟩
abbrev main_c_22 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_c_23 : Ref sig .tc := ⟨.hbm, 149, rfl⟩
abbrev main_v98 : Ref sig .tc := ⟨.hbm, 150, rfl⟩
abbrev main_v99 : Ref sig .tc := ⟨.hbm, 151, rfl⟩
abbrev main_c_24 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_cst_25 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S1600000x8_S1600000_d1 : S1600000x8.ReducesTo [1] S1600000
  h_S_ : 0 < S_.numel
  reducesTo_S1600000_S_d0 : S1600000.ReducesTo [0] S_
  bcast_S_S1600000 : S_.BroadcastsInDim S1600000 (![] : Fin 0 → Fin S1600000.rank)
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  transposes_S128x128_S128x128_1_0 : S128x128.Transposes [1, 0] S128x128
  bcast_S1700000x1_S1700000x128_0_1 : S1700000x1.BroadcastsInDim S1700000x128 (![0, 1] : Fin 2 → Fin S1700000x128.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The kernel program's run, with its result named.

  The program is four tiled dense layers among stretches of whole-array operations. Every weakly
  fair execution terminates without a fault; when it does, every buffer that outlives the call holds
  the contents the last segment boundary names. This module reads two things off that final state:
  the result array is the last boundary's contents at the result buffer, and the eleven argument
  arrays are as launched. What the last boundary's contents ARE, as a function of the arguments, is
  read separately.
-/
import proofs.«157222_j61091614818664_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- Every weakly fair execution of the kernel program ends with the result buffer at the last
    boundary's contents and with the argument arrays as launched. -/
theorem run_named : θ_run defs (onTc (τ := τ) (main (F := F))) ⟨m, fun _ => 0, ρ⟩ (fun r => ∀ c : Dev nD,
      r.2.mem ((c.tc : Thread nD τ).loc main_v83) = W14 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v83 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.KernelIdeal.Named

end
-- ==== Proof.Dense.lean ====
/-
  One dense layer of the network on the extended reals, as ONE function of whole arrays.

  For a node matrix `X` (100000 rows), a weight matrix `W` (128 output features, one row per output
  feature), a bias row `b` and a row `p` that is added to every row of `X` before the product, the
  entry in row `r`, column `c` of the layer's result is

      post ( Σ_k pre (X[r,k] + p[0,k]) · W[c,k]  +  b[0,c] )

  with `pre` and `post` each the identity or the rectifier `max · 0`. The four layers of the
  network are instances: input features 256 or 128, a rectifier before the product, after it, or
  neither. Nothing here mentions a program: both the tiled computation and the whole-array one are
  shown equal to these functions elsewhere.
-/
import Idealize.ShloMosaic.PureOps.Ideal
import Idealize.ShloMosaic.Lib.ValueIdx

noncomputable section

namespace Cert.Dense

open Idealize.ShloMosaic Idealize.ShloMosaic.ValueIdx

/-- The rectifier on the extended reals. -/
def relu (x : EReal) : EReal := max x 0

/-- Entry `(r, c)` of a dense layer over 256 input features. -/
def entry256 (pre post : EReal → EReal)
    (X : (⟨2, ![100000, 256]⟩ : Shape).Idx → EReal) (W : (⟨2, ![128, 256]⟩ : Shape).Idx → EReal)
    (b : (⟨2, ![1, 128]⟩ : Shape).Idx → EReal) (p : (⟨2, ![1, 256]⟩ : Shape).Idx → EReal)
    (r : Fin 100000) (c : Fin 128) : EReal :=
  post ((∑ k : Fin 256, pre (X (ix2 r k) + p (ix2 (0 : Fin 1) k)) * W (ix2 c k)) + b (ix2 (0 : Fin 1) c))

/-- A dense layer over 256 input features, as a whole array. -/
def layer256 (pre post : EReal → EReal)
    (X : (⟨2, ![100000, 256]⟩ : Shape).Idx → EReal) (W : (⟨2, ![128, 256]⟩ : Shape).Idx → EReal)
    (b : (⟨2, ![1, 128]⟩ : Shape).Idx → EReal) (p : (⟨2, ![1, 256]⟩ : Shape).Idx → EReal) :
    (⟨2, ![100000, 128]⟩ : Shape).Idx → EReal :=
  fun i => entry256 pre post X W b p (i 0) (i 1)

theorem layer256_apply (pre post : EReal → EReal)
    (X : (⟨2, ![100000, 256]⟩ : Shape).Idx → EReal) (W : (⟨2, ![128, 256]⟩ : Shape).Idx → EReal)
    (b : (⟨2, ![1, 128]⟩ : Shape).Idx → EReal) (p : (⟨2, ![1, 256]⟩ : Shape).Idx → EReal)
    (r : Fin 100000) (c : Fin 128) :
    layer256 pre post X W b p (ix2 r c) = entry256 pre post X W b p r c := rfl

/-- Entry `(r, c)` of a dense layer over 128 input features. -/
def entry128 (pre post : EReal → EReal)
    (X : (⟨2, ![100000, 128]⟩ : Shape).Idx → EReal) (W : (⟨2, ![128, 128]⟩ : Shape).Idx → EReal)
    (b : (⟨2, ![1, 128]⟩ : Shape).Idx → EReal) (p : (⟨2, ![1, 128]⟩ : Shape).Idx → EReal)
    (r : Fin 100000) (c : Fin 128) : EReal :=
  post ((∑ k : Fin 128, pre (X (ix2 r k) + p (ix2 (0 : Fin 1) k)) * W (ix2 c k)) + b (ix2 (0 : Fin 1) c))

/-- A dense layer over 128 input features, as a whole array. -/
def layer128 (pre post : EReal → EReal)
    (X : (⟨2, ![100000, 128]⟩ : Shape).Idx → EReal) (W : (⟨2, ![128, 128]⟩ : Shape).Idx → EReal)
    (b : (⟨2, ![1, 128]⟩ : Shape).Idx → EReal) (p : (⟨2, ![1, 128]⟩ : Shape).Idx → EReal) :
    (⟨2, ![100000, 128]⟩ : Shape).Idx → EReal :=
  fun i => entry128 pre post X W b p (i 0) (i 1)

theorem layer128_apply (pre post : EReal → EReal)
    (X : (⟨2, ![100000, 128]⟩ : Shape).Idx → EReal) (W : (⟨2, ![128, 128]⟩ : Shape).Idx → EReal)
    (b : (⟨2, ![1, 128]⟩ : Shape).Idx → EReal) (p : (⟨2, ![1, 128]⟩ : Shape).Idx → EReal)
    (r : Fin 100000) (c : Fin 128) :
    layer128 pre post X W b p (ix2 r c) = entry128 pre post X W b p r c := rfl

end Cert.Dense

end
-- ==== Proof.LayerOps.lean ====
/-
  Each tiled dense layer as ONE whole-array operation on its four operand buffers.

  A four-operand whole-array operation rewrites its result buffer to a function of its operands'
  contents and leaves every other buffer alone. Here the function is the dense layer
  (the rectified input layer, the two projections, the biased output projection); that a tiled
  layer really acts on the buffer contents in this way is shown where the tiles are put together.
-/
import proofs.«157222_j61091614818664_2_alg».proof.Proof.Gen.KernelIdeal
import proofs.«157222_j61091614818664_2_alg».proof.Proof.Dense
import Idealize.ShloMosaic.Lib.StableHlo.Run

noncomputable section

namespace Cert.KernelIdeal.Layers

open Idealize.ShloMosaic Idealize.ShloMosaic.TcCoe Idealize.SL.Sem Idealize.ShloMosaic.StableHlo Cert.KernelIdeal Cert.KernelIdeal.Gen

/-! ## Layer 0 -/

/-- The rectified input layer (256 input features), as one whole-array operation on its four operand buffers. -/
abbrev layerOp0 : HloOp τ sig (Elt Ideal) :=
  quaternary main_arg0 main_arg3 main_v41 main_v42 main_v43
    ((fun x w b p => Cert.Dense.layer256 id Cert.Dense.relu x w b p) :
      (⟨S100000x256, .f32⟩ : BufTy).Contents (Elt Ideal) → (⟨S128x256, .f32⟩ : BufTy).Contents (Elt Ideal) → (⟨S1x128, .f32⟩ : BufTy).Contents (Elt Ideal) → (⟨S1x256, .f32⟩ : BufTy).Contents (Elt Ideal) → (⟨S100000x128, .f32⟩ : BufTy).Contents (Elt Ideal))

/-- The operation leaves every buffer but its result as it was. -/
theorem layerOp0_keep (G : Valuation τ sig (Elt Ideal)) {r : Ref sig .tc} (h : r ≠ main_v43) :
    layerOp0.result G (Proc.devRef .tc r) = G (Proc.devRef .tc r) :=
  quaternary_result_ne main_arg0 main_arg3 main_v41 main_v42 main_v43 _ _ _ _ _ _ G h

/-- The operation's result buffer holds the dense layer of its four operands. -/
theorem layerOp0_result (G : Valuation τ sig (Elt Ideal)) :
    layerOp0.result G (Proc.devRef .tc main_v43)
      = Cert.Dense.layer256 id Cert.Dense.relu (G (Proc.devRef .tc main_arg0)) (G (Proc.devRef .tc main_arg3)) (G (Proc.devRef .tc main_v41)) (G (Proc.devRef .tc main_v42)) :=
  quaternary_result main_arg0 main_arg3 main_v41 main_v42 main_v43 _ _ _ _ _ _ G

/-! ## Layer 1 -/

/-- The first projection, as one whole-array operation on its four operand buffers. -/
abbrev layerOp1 : HloOp τ sig (Elt Ideal) :=
  quaternary main_v43 main_arg5 main_v46 main_v47 main_v48
    ((fun x w b p => Cert.Dense.layer128 id id x w b p) :
      (⟨S100000x128, .f32⟩ : BufTy).Contents (Elt Ideal) → (⟨S128x128, .f32⟩ : BufTy).Contents (Elt Ideal) → (⟨S1x128, .f32⟩ : BufTy).Contents (Elt Ideal) → (⟨S1x128, .f32⟩ : BufTy).Contents (Elt Ideal) → (⟨S100000x128, .bf16⟩ : BufTy).Contents (Elt Ideal))

/-- The operation leaves every buffer but its result as it was. -/
theorem layerOp1_keep (G : Valuation τ sig (Elt Ideal)) {r : Ref sig .tc} (h : r ≠ main_v48) :
    layerOp1.result G (Proc.devRef .tc r) = G (Proc.devRef .tc r) :=
  quaternary_result_ne main_v43 main_arg5 main_v46 main_v47 main_v48 _ _ _ _ _ _ G h

/-- The operation's result buffer holds the dense layer of its four operands. -/
theorem layerOp1_result (G : Valuation τ sig (Elt Ideal)) :
    layerOp1.result G (Proc.devRef .tc main_v48)
      = Cert.Dense.layer128 id id (G (Proc.devRef .tc main_v43)) (G (Proc.devRef .tc main_arg5)) (G (Proc.devRef .tc main_v46)) (G (Proc.devRef .tc main_v47)) :=
  quaternary_result main_v43 main_arg5 main_v46 main_v47 main_v48 _ _ _ _ _ _ G

/-! ## Layer 2 -/

/-- The second projection, of the rectified biased aggregate, as one whole-array operation on its four operand buffers. -/
abbrev layerOp2 : HloOp τ sig (Elt Ideal) :=
  quaternary main_v62 main_arg7 main_v64 main_v65 main_v66
    ((fun x w b p => Cert.Dense.layer128 Cert.Dense.relu id x w b p) :
      (⟨S100000x128, .f32⟩ : BufTy).Contents (Elt Ideal) → (⟨S128x128, .f32⟩ : BufTy).Contents (Elt Ideal) → (⟨S1x128, .f32⟩ : BufTy).Contents (Elt Ideal) → (⟨S1x128, .f32⟩ : BufTy).Contents (Elt Ideal) → (⟨S100000x128, .bf16⟩ : BufTy).Contents (Elt Ideal))

/-- The operation leaves every buffer but its result as it was. -/
theorem layerOp2_keep (G : Valuation τ sig (Elt Ideal)) {r : Ref sig .tc} (h : r ≠ main_v66) :
    layerOp2.result G (Proc.devRef .tc r) = G (Proc.devRef .tc r) :=
  quaternary_result_ne main_v62 main_arg7 main_v64 main_v65 main_v66 _ _ _ _ _ _ G h

/-- The operation's result buffer holds the dense layer of its four operands. -/
theorem layerOp2_result (G : Valuation τ sig (Elt Ideal)) :
    layerOp2.result G (Proc.devRef .tc main_v66)
      = Cert.Dense.layer128 Cert.Dense.relu id (G (Proc.devRef .tc main_v62)) (G (Proc.devRef .tc main_arg7)) (G (Proc.devRef .tc main_v64)) (G (Proc.devRef .tc main_v65)) :=
  quaternary_result main_v62 main_arg7 main_v64 main_v65 main_v66 _ _ _ _ _ _ G

/-! ## Layer 3 -/

/-- The biased output projection, as one whole-array operation on its four operand buffers. -/
abbrev layerOp3 : HloOp τ sig (Elt Ideal) :=
  quaternary main_v80 main_arg9 main_v81 main_v82 main_v83
    ((fun x w b p => Cert.Dense.layer128 id id x w b p) :
      (⟨S100000x128, .f32⟩ : BufTy).Contents (Elt Ideal) → (⟨S128x128, .f32⟩ : BufTy).Contents (Elt Ideal) → (⟨S1x128, .f32⟩ : BufTy).Contents (Elt Ideal) → (⟨S1x128, .f32⟩ : BufTy).Contents (Elt Ideal) → (⟨S100000x128, .f32⟩ : BufTy).Contents (Elt Ideal))

/-- The operation leaves every buffer but its result as it was. -/
theorem layerOp3_keep (G : Valuation τ sig (Elt Ideal)) {r : Ref sig .tc} (h : r ≠ main_v83) :
    layerOp3.result G (Proc.devRef .tc r) = G (Proc.devRef .tc r) :=
  quaternary_result_ne main_v80 main_arg9 main_v81 main_v82 main_v83 _ _ _ _ _ _ G h

/-- The operation's result buffer holds the dense layer of its four operands. -/
theorem layerOp3_result (G : Valuation τ sig (Elt Ideal)) :
    layerOp3.result G (Proc.devRef .tc main_v83)
      = Cert.Dense.layer128 id id (G (Proc.devRef .tc main_v80)) (G (Proc.devRef .tc main_arg9)) (G (Proc.devRef .tc main_v81)) (G (Proc.devRef .tc main_v82)) :=
  quaternary_result main_v80 main_arg9 main_v81 main_v82 main_v83 _ _ _ _ _ _ G

end Cert.KernelIdeal.Layers

end
-- ==== Proof.LayerExits.lean ====
/-
  A tiled dense layer acts on the buffer contents as ONE whole-array operation.

  A tiled layer reads four arrays through its input windows and writes its result array block by
  block. When the layer is left, each input window's array is as it was entered (nothing is written
  back through an input window), the output window's array is what the write-backs leave, and no
  other buffer has been touched. Given that the write-backs leave the dense layer of the four
  arrays as the layer found them (the hypothesis `harr`: the statement about the tiles, proved
  elsewhere), the contents at exit are the contents at entry with that one buffer rewritten —
  the result of the layer's whole-array operation. The first lemma of each pair says this with the
  contents at entry and the arrays at exit as variables; the second instantiates it at the
  program's own segment boundaries.
-/
import proofs.«157222_j61091614818664_2_alg».proof.Proof.Gen.KernelIdeal.Frame
import proofs.«157222_j61091614818664_2_alg».proof.Proof.LayerOps

set_option maxRecDepth 16384

noncomputable section

namespace Cert.KernelIdeal.Layers

open Idealize.ShloMosaic Idealize.ShloMosaic.TcCoe Idealize.SL.Sem Idealize.ShloMosaic.StableHlo Cert.KernelIdeal Cert.KernelIdeal.Gen
open Idealize.ShloMosaic.Pipeline (Dat Cfg Window BodyObligation cellOf)

variable (m : (ℓ : Loc nD τ sig) → Buf (Elt Ideal) ℓ) (ρ : Dev nD → PrngReg)

/-! ## Layer 0 -/

-- looking up the types of the later buffers in the program's table of buffers takes many small steps
set_option maxHeartbeats 4000000 in
/-- Contents `G` with layer 0's five arrays put back as `A`: the operation's result on `G`, when the four
    input arrays are `G`'s own and the output array is the dense layer of them. -/
theorem exit_of0 (c : Dev nD) (G : Valuation τ sig (Elt Ideal))
    (A : (w : Fin 5) → Buf (Elt Ideal) ((spec0 w).arr.view.loc (c.tc : Thread nD τ)))
    (h0 : A 0 = G (Proc.devRef .tc main_arg0)) (h1 : A 1 = G (Proc.devRef .tc main_arg3))
    (h2 : A 2 = G (Proc.devRef .tc main_v41)) (h3 : A 3 = G (Proc.devRef .tc main_v42))
    (h4 : A 4 = Cert.Dense.layer256 id Cert.Dense.relu (G (Proc.devRef .tc main_arg0)) (G (Proc.devRef .tc main_arg3)) (G (Proc.devRef .tc main_v41)) (G (Proc.devRef .tc main_v42))) :
    Pipeline.withArrays spec0 c G A = layerOp0.result G := by
  funext b
  by_cases h : ∃ w, Proc.devRef .tc (Pipeline.arrRef spec0 w) = b
  · obtain ⟨w, rfl⟩ := h
    rw [Pipeline.withArrays_arr spec0 launch0.win.arr_inj c G A w]
    match w with
    | ⟨0, _⟩ => exact h0.trans (layerOp0_keep G (r := main_arg0) (by decide)).symm
    | ⟨1, _⟩ => exact h1.trans (layerOp0_keep G (r := main_arg3) (by decide)).symm
    | ⟨2, _⟩ => exact h2.trans (layerOp0_keep G (r := main_v41) (by decide)).symm
    | ⟨3, _⟩ => exact h3.trans (layerOp0_keep G (r := main_v42) (by decide)).symm
    | ⟨4, _⟩ => exact h4.trans (layerOp0_result G).symm
  · unfold Pipeline.withArrays
    rw [dif_neg h]
    exact (HloOp.result_of_not_mem _ _ (by
      rw [quaternary_writes, Finset.mem_singleton]
      exact fun e => h ⟨4, e.symm⟩)).symm

set_option maxHeartbeats 4000000 in
/-- The contents when layer 0 is left are the operation's result on the contents when it was entered. -/
theorem exit0 (harr : ∀ (V : (c : Dev nD) → (b : Ref sig .tc) → Buf (Elt Ideal) ((c : Thread nD τ).loc b)) (c : Dev nD),
      (dat0 (F := Ideal) V c).arrAt 4 cfg0.N = Cert.Dense.layer256 id Cert.Dense.relu (V c main_arg0) (V c main_arg3) (V c main_v41) (V c main_v42))
    (c : Dev nD) : W8 m ρ c = layerOp0.result (W7 m ρ c) := by
  have h0 : (dat0 (V7 m ρ) c).arrAt 0 cfg0.N = V7 m ρ c main_arg0 := ((dat0 (V7 m ρ) c).arrAt_in 0 rfl _).trans (A_eq0 (V7 m ρ) c 0)
  have h1 : (dat0 (V7 m ρ) c).arrAt 1 cfg0.N = V7 m ρ c main_arg3 := ((dat0 (V7 m ρ) c).arrAt_in 1 rfl _).trans (A_eq0 (V7 m ρ) c 1)
  have h2 : (dat0 (V7 m ρ) c).arrAt 2 cfg0.N = V7 m ρ c main_v41 := ((dat0 (V7 m ρ) c).arrAt_in 2 rfl _).trans (A_eq0 (V7 m ρ) c 2)
  have h3 : (dat0 (V7 m ρ) c).arrAt 3 cfg0.N = V7 m ρ c main_v42 := ((dat0 (V7 m ρ) c).arrAt_in 3 rfl _).trans (A_eq0 (V7 m ρ) c 3)
  unfold W8
  exact exit_of0 c (W7 m ρ c) (fun w => (dat0 (V7 m ρ) c).arrAt w cfg0.N) h0 h1 h2 h3 (harr (V7 m ρ) c)

/-! ## Layer 1 -/

-- looking up the types of the later buffers in the program's table of buffers takes many small steps
set_option maxHeartbeats 4000000 in
/-- Contents `G` with layer 1's five arrays put back as `A`: the operation's result on `G`, when the four
    input arrays are `G`'s own and the output array is the dense layer of them. -/
theorem exit_of1 (c : Dev nD) (G : Valuation τ sig (Elt Ideal))
    (A : (w : Fin 5) → Buf (Elt Ideal) ((spec1 w).arr.view.loc (c.tc : Thread nD τ)))
    (h0 : A 0 = G (Proc.devRef .tc main_v43)) (h1 : A 1 = G (Proc.devRef .tc main_arg5))
    (h2 : A 2 = G (Proc.devRef .tc main_v46)) (h3 : A 3 = G (Proc.devRef .tc main_v47))
    (h4 : A 4 = Cert.Dense.layer128 id id (G (Proc.devRef .tc main_v43)) (G (Proc.devRef .tc main_arg5)) (G (Proc.devRef .tc main_v46)) (G (Proc.devRef .tc main_v47))) :
    Pipeline.withArrays spec1 c G A = layerOp1.result G := by
  funext b
  by_cases h : ∃ w, Proc.devRef .tc (Pipeline.arrRef spec1 w) = b
  · obtain ⟨w, rfl⟩ := h
    rw [Pipeline.withArrays_arr spec1 launch1.win.arr_inj c G A w]
    match w with
    | ⟨0, _⟩ => exact h0.trans (layerOp1_keep G (r := main_v43) (by decide)).symm
    | ⟨1, _⟩ => exact h1.trans (layerOp1_keep G (r := main_arg5) (by decide)).symm
    | ⟨2, _⟩ => exact h2.trans (layerOp1_keep G (r := main_v46) (by decide)).symm
    | ⟨3, _⟩ => exact h3.trans (layerOp1_keep G (r := main_v47) (by decide)).symm
    | ⟨4, _⟩ => exact h4.trans (layerOp1_result G).symm
  · unfold Pipeline.withArrays
    rw [dif_neg h]
    exact (HloOp.result_of_not_mem _ _ (by
      rw [quaternary_writes, Finset.mem_singleton]
      exact fun e => h ⟨4, e.symm⟩)).symm

set_option maxHeartbeats 4000000 in
/-- The contents when layer 1 is left are the operation's result on the contents when it was entered. -/
theorem exit1 (harr : ∀ (V : (c : Dev nD) → (b : Ref sig .tc) → Buf (Elt Ideal) ((c : Thread nD τ).loc b)) (c : Dev nD),
      (dat1 (F := Ideal) V c).arrAt 4 cfg1.N = Cert.Dense.layer128 id id (V c main_v43) (V c main_arg5) (V c main_v46) (V c main_v47))
    (c : Dev nD) : W10 m ρ c = layerOp1.result (W9 m ρ c) := by
  have h0 : (dat1 (V9 m ρ) c).arrAt 0 cfg1.N = V9 m ρ c main_v43 := ((dat1 (V9 m ρ) c).arrAt_in 0 rfl _).trans (A_eq1 (V9 m ρ) c 0)
  have h1 : (dat1 (V9 m ρ) c).arrAt 1 cfg1.N = V9 m ρ c main_arg5 := ((dat1 (V9 m ρ) c).arrAt_in 1 rfl _).trans (A_eq1 (V9 m ρ) c 1)
  have h2 : (dat1 (V9 m ρ) c).arrAt 2 cfg1.N = V9 m ρ c main_v46 := ((dat1 (V9 m ρ) c).arrAt_in 2 rfl _).trans (A_eq1 (V9 m ρ) c 2)
  have h3 : (dat1 (V9 m ρ) c).arrAt 3 cfg1.N = V9 m ρ c main_v47 := ((dat1 (V9 m ρ) c).arrAt_in 3 rfl _).trans (A_eq1 (V9 m ρ) c 3)
  unfold W10
  exact exit_of1 c (W9 m ρ c) (fun w => (dat1 (V9 m ρ) c).arrAt w cfg1.N) h0 h1 h2 h3 (harr (V9 m ρ) c)

/-! ## Layer 2 -/

-- looking up the types of the later buffers in the program's table of buffers takes many small steps
set_option maxHeartbeats 4000000 in
/-- Contents `G` with layer 2's five arrays put back as `A`: the operation's result on `G`, when the four
    input arrays are `G`'s own and the output array is the dense layer of them. -/
theorem exit_of2 (c : Dev nD) (G : Valuation τ sig (Elt Ideal))
    (A : (w : Fin 5) → Buf (Elt Ideal) ((spec2 w).arr.view.loc (c.tc : Thread nD τ)))
    (h0 : A 0 = G (Proc.devRef .tc main_v62)) (h1 : A 1 = G (Proc.devRef .tc main_arg7))
    (h2 : A 2 = G (Proc.devRef .tc main_v64)) (h3 : A 3 = G (Proc.devRef .tc main_v65))
    (h4 : A 4 = Cert.Dense.layer128 Cert.Dense.relu id (G (Proc.devRef .tc main_v62)) (G (Proc.devRef .tc main_arg7)) (G (Proc.devRef .tc main_v64)) (G (Proc.devRef .tc main_v65))) :
    Pipeline.withArrays spec2 c G A = layerOp2.result G := by
  funext b
  by_cases h : ∃ w, Proc.devRef .tc (Pipeline.arrRef spec2 w) = b
  · obtain ⟨w, rfl⟩ := h
    rw [Pipeline.withArrays_arr spec2 launch2.win.arr_inj c G A w]
    match w with
    | ⟨0, _⟩ => exact h0.trans (layerOp2_keep G (r := main_v62) (by decide)).symm
    | ⟨1, _⟩ => exact h1.trans (layerOp2_keep G (r := main_arg7) (by decide)).symm
    | ⟨2, _⟩ => exact h2.trans (layerOp2_keep G (r := main_v64) (by decide)).symm
    | ⟨3, _⟩ => exact h3.trans (layerOp2_keep G (r := main_v65) (by decide)).symm
    | ⟨4, _⟩ => exact h4.trans (layerOp2_result G).symm
  · unfold Pipeline.withArrays
    rw [dif_neg h]
    exact (HloOp.result_of_not_mem _ _ (by
      rw [quaternary_writes, Finset.mem_singleton]
      exact fun e => h ⟨4, e.symm⟩)).symm

set_option maxHeartbeats 4000000 in
/-- The contents when layer 2 is left are the operation's result on the contents when it was entered. -/
theorem exit2 (harr : ∀ (V : (c : Dev nD) → (b : Ref sig .tc) → Buf (Elt Ideal) ((c : Thread nD τ).loc b)) (c : Dev nD),
      (dat2 (F := Ideal) V c).arrAt 4 cfg2.N = Cert.Dense.layer128 Cert.Dense.relu id (V c main_v62) (V c main_arg7) (V c main_v64) (V c main_v65))
    (c : Dev nD) : W12 m ρ c = layerOp2.result (W11 m ρ c) := by
  have h0 : (dat2 (V11 m ρ) c).arrAt 0 cfg2.N = V11 m ρ c main_v62 := ((dat2 (V11 m ρ) c).arrAt_in 0 rfl _).trans (A_eq2 (V11 m ρ) c 0)
  have h1 : (dat2 (V11 m ρ) c).arrAt 1 cfg2.N = V11 m ρ c main_arg7 := ((dat2 (V11 m ρ) c).arrAt_in 1 rfl _).trans (A_eq2 (V11 m ρ) c 1)
  have h2 : (dat2 (V11 m ρ) c).arrAt 2 cfg2.N = V11 m ρ c main_v64 := ((dat2 (V11 m ρ) c).arrAt_in 2 rfl _).trans (A_eq2 (V11 m ρ) c 2)
  have h3 : (dat2 (V11 m ρ) c).arrAt 3 cfg2.N = V11 m ρ c main_v65 := ((dat2 (V11 m ρ) c).arrAt_in 3 rfl _).trans (A_eq2 (V11 m ρ) c 3)
  unfold W12
  exact exit_of2 c (W11 m ρ c) (fun w => (dat2 (V11 m ρ) c).arrAt w cfg2.N) h0 h1 h2 h3 (harr (V11 m ρ) c)

/-! ## Layer 3 -/

-- looking up the types of the later buffers in the program's table of buffers takes many small steps
set_option maxHeartbeats 4000000 in
/-- Contents `G` with layer 3's five arrays put back as `A`: the operation's result on `G`, when the four
    input arrays are `G`'s own and the output array is the dense layer of them. -/
theorem exit_of3 (c : Dev nD) (G : Valuation τ sig (Elt Ideal))
    (A : (w : Fin 5) → Buf (Elt Ideal) ((spec3 w).arr.view.loc (c.tc : Thread nD τ)))
    (h0 : A 0 = G (Proc.devRef .tc main_v80)) (h1 : A 1 = G (Proc.devRef .tc main_arg9))
    (h2 : A 2 = G (Proc.devRef .tc main_v81)) (h3 : A 3 = G (Proc.devRef .tc main_v82))
    (h4 : A 4 = Cert.Dense.layer128 id id (G (Proc.devRef .tc main_v80)) (G (Proc.devRef .tc main_arg9)) (G (Proc.devRef .tc main_v81)) (G (Proc.devRef .tc main_v82))) :
    Pipeline.withArrays spec3 c G A = layerOp3.result G := by
  funext b
  by_cases h : ∃ w, Proc.devRef .tc (Pipeline.arrRef spec3 w) = b
  · obtain ⟨w, rfl⟩ := h
    rw [Pipeline.withArrays_arr spec3 launch3.win.arr_inj c G A w]
    match w with
    | ⟨0, _⟩ => exact h0.trans (layerOp3_keep G (r := main_v80) (by decide)).symm
    | ⟨1, _⟩ => exact h1.trans (layerOp3_keep G (r := main_arg9) (by decide)).symm
    | ⟨2, _⟩ => exact h2.trans (layerOp3_keep G (r := main_v81) (by decide)).symm
    | ⟨3, _⟩ => exact h3.trans (layerOp3_keep G (r := main_v82) (by decide)).symm
    | ⟨4, _⟩ => exact h4.trans (layerOp3_result G).symm
  · unfold Pipeline.withArrays
    rw [dif_neg h]
    exact (HloOp.result_of_not_mem _ _ (by
      rw [quaternary_writes, Finset.mem_singleton]
      exact fun e => h ⟨4, e.symm⟩)).symm

set_option maxHeartbeats 4000000 in
/-- The contents when layer 3 is left are the operation's result on the contents when it was entered. -/
theorem exit3 (harr : ∀ (V : (c : Dev nD) → (b : Ref sig .tc) → Buf (Elt Ideal) ((c : Thread nD τ).loc b)) (c : Dev nD),
      (dat3 (F := Ideal) V c).arrAt 4 cfg3.N = Cert.Dense.layer128 id id (V c main_v80) (V c main_arg9) (V c main_v81) (V c main_v82))
    (c : Dev nD) : W14 m ρ c = layerOp3.result (W13 m ρ c) := by
  have h0 : (dat3 (V13 m ρ) c).arrAt 0 cfg3.N = V13 m ρ c main_v80 := ((dat3 (V13 m ρ) c).arrAt_in 0 rfl _).trans (A_eq3 (V13 m ρ) c 0)
  have h1 : (dat3 (V13 m ρ) c).arrAt 1 cfg3.N = V13 m ρ c main_arg9 := ((dat3 (V13 m ρ) c).arrAt_in 1 rfl _).trans (A_eq3 (V13 m ρ) c 1)
  have h2 : (dat3 (V13 m ρ) c).arrAt 2 cfg3.N = V13 m ρ c main_v81 := ((dat3 (V13 m ρ) c).arrAt_in 2 rfl _).trans (A_eq3 (V13 m ρ) c 2)
  have h3 : (dat3 (V13 m ρ) c).arrAt 3 cfg3.N = V13 m ρ c main_v82 := ((dat3 (V13 m ρ) c).arrAt_in 3 rfl _).trans (A_eq3 (V13 m ρ) c 3)
  unfold W14
  exact exit_of3 c (W13 m ρ c) (fun w => (dat3 (V13 m ρ) c).arrAt w cfg3.N) h0 h1 h2 h3 (harr (V13 m ρ) c)

end Cert.KernelIdeal.Layers

end
-- ==== Proof.Tile0.lean ====
/-
  The first dense layer, tile by tile.

  The layer runs over a grid of 25 points; point t takes rows 4000·t … 4000·t + 3999 of the node matrix
  (256 input features), the whole weight matrix, the whole bias row and the whole row added to the nodes, and
  leaves the same rows of the output. Here: the body's result at an entry of its block is
  max (Σ_k (x[y,k] + p[0,k]) · W[c,k] + b[0,c]) 0; read through the blocks' places in the arrays this is the
  entry of the whole-array layer in row 4000·t + y; the 25 row blocks cover the output, so the output array
  ends as the whole-array layer.
-/
import proofs.«157222_j61091614818664_2_alg».proof.Proof.Gen.KernelIdeal.Frame
import proofs.«157222_j61091614818664_2_alg».proof.Proof.Dense
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Tiles

open Idealize.ShloMosaic Idealize.ShloMosaic.TcCoe Idealize.SL.Sem Cert.KernelIdeal Cert.KernelIdeal.Gen
open Idealize.ShloMosaic.Pipeline (Dat Cfg Window BodyObligation cellOf)

/-- A row vector spread over 4000 rows reads, in any row, its own entry of that column. -/
private theorem row256_apply {α : Type} (v : S1x256.Idx → α) (h1 : S1x256.ShapeCasts S1x256) (h2 : S1x256.Broadcasts S4000x256)
    (y : Fin 4000) (k : Fin 256) :
    broadcastTo S4000x256 (shapeCast S1x256 v h1) h2 (ValueIdx.ix2 y k) = v (ValueIdx.ix2 (0 : Fin 1) k) := by
  rw [shapeCast_self]
  exact broadcastTo_apply v h2 (ValueIdx.ix2 y k) (ValueIdx.ix2 (0 : Fin 1) k) (fun a => match a with
    | ⟨0, _⟩ => by show 0 = if (1 : Nat) = 1 then 0 else y.val; rw [if_pos rfl]
    | ⟨1, _⟩ => by show k.val = if (256 : Nat) = 1 then 0 else k.val; rw [if_neg (by decide)])

private theorem row128_apply {α : Type} (v : S1x128.Idx → α) (h1 : S1x128.ShapeCasts S1x128) (h2 : S1x128.Broadcasts S4000x128)
    (y : Fin 4000) (c : Fin 128) :
    broadcastTo S4000x128 (shapeCast S1x128 v h1) h2 (ValueIdx.ix2 y c) = v (ValueIdx.ix2 (0 : Fin 1) c) := by
  rw [shapeCast_self]
  exact broadcastTo_apply v h2 (ValueIdx.ix2 y c) (ValueIdx.ix2 (0 : Fin 1) c) (fun a => match a with
    | ⟨0, _⟩ => by show 0 = if (1 : Nat) = 1 then 0 else y.val; rw [if_pos rfl]
    | ⟨1, _⟩ => by show c.val = if (128 : Nat) = 1 then 0 else c.val; rw [if_neg (by decide)])

private theorem tr_apply {α : Type} (w : S128x256.Idx → α) (h : S128x256.Transposes [1, 0] S256x128) (k : Fin 256) (c : Fin 128) :
    transpose S256x128 [1, 0] w h (ValueIdx.ix2 k c) = w (ValueIdx.ix2 c k) :=
  transpose_apply [1, 0] w h (ValueIdx.ix2 k c) (ValueIdx.ix2 c k) (fun b => match b with
    | ⟨0, _⟩ => rfl
    | ⟨1, _⟩ => rfl)

private theorem lhs_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
private theorem lhs_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
private theorem rhs_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
private theorem rhs_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- The product into a zero accumulator, at an entry, is the plain sum over the contracted axis. -/
private theorem mm_apply (lhs : FVec Ideal S4000x256 .bf16) (rhs : FVec Ideal S256x128 .bf16) (y : Fin 4000) (c : Fin 128) :
    FloatOps.matmul dot_S4000x256_S256x128_S4000x128_1_0_0_1_n_n none lhs rhs (constant S4000x128 .f32 0x00000000#32) (ValueIdx.ix2 y c)
      = ∑ k : Fin 256, lhs (ValueIdx.ix2 y k) * rhs (ValueIdx.ix2 k c) := by
  rw [Ideal.matmul_constant_zero_apply, ← Equiv.sum_comp (ValueIdx.contrEquiv1 dot_S4000x256_S256x128_S4000x128_1_0_0_1_n_n 256 rfl rfl).symm]
  refine Finset.sum_congr rfl fun k _ => ?_
  have hk := ValueIdx.contrEquiv1_symm_val dot_S4000x256_S256x128_S4000x128_1_0_0_1_n_n 256 rfl rfl k
  have el : dot_S4000x256_S256x128_S4000x128_1_0_0_1_n_n.lhsIdx (ValueIdx.ix2 y c) ((ValueIdx.contrEquiv1 dot_S4000x256_S256x128_S4000x128_1_0_0_1_n_n 256 rfl rfl).symm k) = ValueIdx.ix2 y k := funext fun a => Fin.ext (by
    match a with
    | ⟨0, _⟩ => exact lhs_0 _ _
    | ⟨1, _⟩ => exact (lhs_1 _ _).trans hk)
  have er : dot_S4000x256_S256x128_S4000x128_1_0_0_1_n_n.rhsIdx (ValueIdx.ix2 y c) ((ValueIdx.contrEquiv1 dot_S4000x256_S256x128_S4000x128_1_0_0_1_n_n 256 rfl rfl).symm k) = ValueIdx.ix2 k c := funext fun a => Fin.ext (by
    match a with
    | ⟨0, _⟩ => exact (rhs_0 _ _).trans hk
    | ⟨1, _⟩ => exact rhs_1 _ _)
  rw [el, er]

/-- The body's result at row y, column c of its block: the rectified sum over the input features. -/
private theorem pay_entry (x0 : Vec Ideal S4000x256 .f32) (x1 : Vec Ideal S128x256 .f32)
    (x2 : Vec Ideal S1x128 .f32) (x3 : Vec Ideal S1x256 .f32) (y : Fin 4000) (c : Fin 128) :
    k0_pay1 (F := Ideal) x0 x3 x1 x2 (ValueIdx.ix2 y c)
      = Cert.Dense.relu ((∑ k : Fin 256, id (x0 (ValueIdx.ix2 y k) + x3 (ValueIdx.ix2 (0 : Fin 1) k)) * x1 (ValueIdx.ix2 c k))
          + x2 (ValueIdx.ix2 (0 : Fin 1) c)) := by
  unfold k0_pay1
  refine (congrArg₂ (fun a b : EReal => max (a + b) (Ideal.ofBits .f32 0x00000000#32))
    (mm_apply _ _ y c) (row128_apply x2 _ _ y c)).trans ?_
  rw [Ideal.ofBits_zero_f32]
  unfold Cert.Dense.relu
  refine congrArg (fun a : EReal => max (a + x2 (ValueIdx.ix2 (0 : Fin 1) c)) 0) (Finset.sum_congr rfl fun k _ => ?_)
  exact congrArg₂ (fun a b : EReal => (x0 (ValueIdx.ix2 y k) + a) * b) (row256_apply x3 _ _ y k) (tr_apply _ _ k c)

private theorem hz : (![0, 0] : Fin 2 → Nat) = fun _ => 0 := funext fun a => by fin_cases a <;> rfl

/-- The block index of every window at every point of the grid: the node matrix and the output move one block of
    rows per point; the weights, the bias row and the added row stay whole. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row y of the node matrix's block at point t is row 4000·t + y of the matrix. -/
private theorem blk_x (A : S100000x256.Idx → EReal) (t : Fin cfg0.N) (y : Fin 4000) (k : Fin 256) (r : Fin 100000)
    (hr : r.val = t.val * 4000 + y.val) :
    ((cfg0.win 0).blk t).view.read (Elt Ideal) A (ValueIdx.ix2 y k) = A (ValueIdx.ix2 r k) := by
  obtain ⟨e0, e1, -⟩ := idx_facts t
  show A (((cfg0.win 0).blk t).view.emb (ValueIdx.ix2 y k)) = A (ValueIdx.ix2 r k)
  refine congrArg A (funext fun a => Fin.ext ?_)
  match a with
  | ⟨0, _⟩ => show win0_0.index t (0 : Fin 2) * 4000 + 1 * y.val = r.val; omega
  | ⟨1, _⟩ => show win0_0.index t (1 : Fin 2) * 256 + 1 * k.val = k.val; omega

/-- The weights' window is the whole matrix at every point. -/
private theorem blk_w (A : S128x256.Idx → EReal) (t : Fin cfg0.N) (j : S128x256.Idx) :
    ((cfg0.win 1).blk t).view.read (Elt Ideal) A j = A j := by
  obtain ⟨-, -, e0, e1, -⟩ := idx_facts t
  show A (((cfg0.win 1).blk t).view.emb j) = A j
  refine congrArg A (funext fun a => Fin.ext ?_)
  match a with
  | ⟨0, _⟩ => show win0_1.index t (0 : Fin 2) * 128 + 1 * (j 0).val = (j 0).val; omega
  | ⟨1, _⟩ => show win0_1.index t (1 : Fin 2) * 256 + 1 * (j 1).val = (j 1).val; omega

/-- The bias row's window is the whole row at every point. -/
private theorem blk_b (A : S1x128.Idx → EReal) (t : Fin cfg0.N) (j : S1x128.Idx) :
    ((cfg0.win 2).blk t).view.read (Elt Ideal) A j = A j := by
  obtain ⟨-, -, -, -, e0, e1, -⟩ := idx_facts t
  show A (((cfg0.win 2).blk t).view.emb j) = A j
  refine congrArg A (funext fun a => Fin.ext ?_)
  match a with
  | ⟨0, _⟩ => show win0_2.index t (0 : Fin 2) * 1 + 1 * (j 0).val = (j 0).val; omega
  | ⟨1, _⟩ => show win0_2.index t (1 : Fin 2) * 128 + 1 * (j 1).val = (j 1).val; omega

/-- The added row's window is the whole row at every point. -/
private theorem blk_p (A : S1x256.Idx → EReal) (t : Fin cfg0.N) (j : S1x256.Idx) :
    ((cfg0.win 3).blk t).view.read (Elt Ideal) A j = A j := by
  obtain ⟨-, -, -, -, -, -, e0, e1, -⟩ := idx_facts t
  show A (((cfg0.win 3).blk t).view.emb j) = A j
  refine congrArg A (funext fun a => Fin.ext ?_)
  match a with
  | ⟨0, _⟩ => show win0_3.index t (0 : Fin 2) * 1 + 1 * (j 0).val = (j 0).val; omega
  | ⟨1, _⟩ => show win0_3.index t (1 : Fin 2) * 256 + 1 * (j 1).val = (j 1).val; omega

/-- Row y of the output's block at point t is row 4000·t + y of the output. -/
private theorem blk_o (G : S100000x128.Idx → EReal) (t : Fin cfg0.N) (y : Fin 4000) (cc : Fin 128) (r : Fin 100000)
    (hr : r.val = t.val * 4000 + y.val) :
    ((cfg0.win 4).blk t).view.read (Elt Ideal) G (ValueIdx.ix2 y cc) = G (ValueIdx.ix2 r cc) := by
  obtain ⟨-, -, -, -, -, -, -, -, e0, e1⟩ := idx_facts t
  show G (((cfg0.win 4).blk t).view.emb (ValueIdx.ix2 y cc)) = G (ValueIdx.ix2 r cc)
  refine congrArg G (funext fun a => Fin.ext ?_)
  match a with
  | ⟨0, _⟩ => show win0_4.index t (0 : Fin 2) * 4000 + 1 * y.val = r.val; omega
  | ⟨1, _⟩ => show win0_4.index t (1 : Fin 2) * 128 + 1 * cc.val = cc.val; omega

/-- What point t writes back is block t of the dense layer of the arrays the region found. -/
private theorem flushed_eq (V : (c : Dev nD) → (b : Ref sig .tc) → Buf (Elt Ideal) ((c : Thread nD τ).loc b)) (c : Dev nD)
    (t : Fin cfg0.N) :
    (dat0 (F := Ideal) V c).flushed 4 t = ((cfg0.win 4).blk t).view.read (Elt Ideal)
      (Cert.Dense.layer256 id Cert.Dense.relu (V c main_arg0) (V c main_arg3) (V c main_v41) (V c main_v42)) := by
  show (cfg0.win 4).cut (grid0.coords t) ((dat0 V c).after 4 t) = _
  rw [after0_4]
  unfold out0_4
  rw [View.canon_unit_zero hz]
  simp only [View.ld_unit_zero (S := S4000x256) hz, View.ld_unit_zero (S := S1x256) hz,
    View.ld_unit_zero (S := S128x256) hz, View.ld_unit_zero (S := S1x128) hz]
  refine funext fun (j : S4000x128.Idx) => ?_
  obtain ⟨y, cc, rfl⟩ : ∃ (y : Fin 4000) (cc : Fin 128), j = ValueIdx.ix2 y cc := ⟨j 0, j 1, ValueIdx.eq_ix2 j⟩
  have ht : t.val < 25 := t.isLt
  have hy : y.val < 4000 := y.isLt
  refine (pay_entry _ _ _ _ y cc).trans ?_
  refine Eq.trans ?_ (blk_o _ t y cc ⟨t.val * 4000 + y.val, by omega⟩ rfl).symm
  rw [Cert.Dense.layer256_apply]
  unfold Cert.Dense.entry256
  refine congrArg Cert.Dense.relu (congrArg₂ (fun a b : EReal => a + b) (Finset.sum_congr rfl fun k _ => ?_) (blk_b _ t _))
  exact congrArg₂ (fun a b : EReal => a * b)
    (congrArg₂ (fun a b : EReal => id (a + b)) (blk_x _ t y k _ rfl) (blk_p _ t _)) (blk_w _ t _)

/-- Every row of the output lies in the block of the point that handles its 4000 rows. -/
private theorem covered (i : S100000x128.Idx) :
    ∃ t : Fin cfg0.N, (cfg0.win 4).flush t = true ∧ i ∈ ((cfg0.win 4).blk t).view.set := by
  have h0 : (i 0).val < 100000 := (i 0).isLt
  have h1 : (i 1).val < 128 := (i 1).isLt
  let t : Fin cfg0.N := ⟨(i 0).val / 4000, by show (i 0).val / 4000 < 25; omega⟩
  obtain ⟨-, -, -, -, -, -, -, -, e0, e1⟩ := idx_facts t
  have et : t.val = (i 0).val / 4000 := rfl
  refine ⟨t, flush0_4 t, ?_⟩
  show i ∈ ((View.whole main_v43).slice (win0_4.rect t)).set
  rw [View.set_slice_whole, Rect.mem_set_unit]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

/-- The output array after the region is the dense layer of the arrays the region found. -/
theorem array0 (V : (c : Dev nD) → (b : Ref sig .tc) → Buf (Elt Ideal) ((c : Thread nD τ).loc b)) (c : Dev nD) :
    (dat0 (F := Ideal) V c).arrAt 4 cfg0.N
      = Cert.Dense.layer256 id Cert.Dense.relu (V c main_arg0) (V c main_arg3) (V c main_v41) (V c main_v42) :=
  (dat0 (F := Ideal) V c).arrAt_eq_of_cover 4 _ (fun t _ => flushed_eq V c t) covered

end Cert.KernelIdeal.Tiles

end
-- ==== Proof.Tile1.lean ====
import proofs.«157222_j61091614818664_2_alg».proof.Proof.Gen.KernelIdeal.Frame
import proofs.«157222_j61091614818664_2_alg».proof.Proof.Dense
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Tiles

open Idealize.ShloMosaic Idealize.ShloMosaic.TcCoe Idealize.SL.Sem Cert.KernelIdeal Cert.KernelIdeal.Gen
open Idealize.ShloMosaic.Pipeline (Dat Cfg Window BodyObligation cellOf)

/-- The left operand's index at output index `i` and contraction position `q`: the output's row … -/
private theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and the contraction position's one coordinate. -/
private theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's index: the contraction position's one coordinate … -/
private theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and the output's column. -/
private theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product into the zero accumulator, read at row `y` and column `c`: the plain sum over the contracted
    axis of the left operand's row `y` against the right operand's column `c`. -/
private theorem prod_apply (lhs : FVec Ideal S4000x128 .bf16) (rhs : FVec Ideal S128x128 .bf16) (y : Fin 4000) (c : Fin 128) :
    matmul (F := Ideal) dot_S4000x128_S128x128_S4000x128_1_0_0_1_n_n none lhs rhs
        (constant (F := Ideal) S4000x128 .f32 0x00000000#32) (ValueIdx.ix2 y c)
      = ∑ k : Fin 128, lhs (ValueIdx.ix2 y k) * rhs (ValueIdx.ix2 k c) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ValueIdx.ix2 y c) ((ValueIdx.contrEquiv1 dot_S4000x128_S128x128_S4000x128_1_0_0_1_n_n 128 rfl rfl).symm k) = ValueIdx.ix2 y k :=
    funext fun a => Fin.ext (by
      match a with
      | ⟨0, _⟩ => exact lhs_row _ _
      | ⟨1, _⟩ => exact (lhs_col _ _).trans hk)
  have er : dot_S4000x128_S128x128_S4000x128_1_0_0_1_n_n.rhsIdx (ValueIdx.ix2 y c) ((ValueIdx.contrEquiv1 dot_S4000x128_S128x128_S4000x128_1_0_0_1_n_n 128 rfl rfl).symm k) = ValueIdx.ix2 k c :=
    funext fun a => Fin.ext (by
      match a with
      | ⟨0, _⟩ => exact (rhs_row _ _).trans hk
      | ⟨1, _⟩ => exact rhs_col _ _)
  rw [el, er]

/-- A row broadcast down the block's rows reads the row's entry in the same column. -/
private theorem row_apply (v : Vec Ideal S1x128 .f32) (y : Fin 4000) (c : Fin 128) :
    broadcastTo S4000x128 v broadcasts_S1x128_S4000x128 (ValueIdx.ix2 y c) = v (ValueIdx.ix2 (0 : Fin 1) c) :=
  broadcastTo_apply v broadcasts_S1x128_S4000x128 (ValueIdx.ix2 y c) (ValueIdx.ix2 (0 : Fin 1) c) (fun a => match a with
    | ⟨0, _⟩ => by show 0 = if (1 : Nat) = 1 then 0 else y.val; rw [if_pos rfl]
    | ⟨1, _⟩ => by show c.val = if (128 : Nat) = 1 then 0 else c.val; rw [if_neg (by decide)])

/-- The transposed weights at `(k, c)` are the weights at `(c, k)`. -/
private theorem transpose_apply' (w : FVec Ideal S128x128 .bf16) (k c : Fin 128) :
    transpose S128x128 [1, 0] w transposes_S128x128_p1_0_S128x128 (ValueIdx.ix2 k c) = w (ValueIdx.ix2 c k) :=
  transpose_apply [1, 0] w transposes_S128x128_p1_0_S128x128 (ValueIdx.ix2 k c) (ValueIdx.ix2 c k) (fun b => match b with
    | ⟨0, _⟩ => rfl
    | ⟨1, _⟩ => rfl)

/-- The body's arithmetic at row `y`, column `c` of its output block: the row of the node block plus the added row,
    against the weights' row `c`, plus the bias at `c`. The narrowings are the identity on extended reals. -/
private theorem pay_apply (x0 : Vec Ideal S4000x128 .f32) (x1 : Vec Ideal S128x128 .f32) (x2 : Vec Ideal S1x128 .f32)
    (x3 : Vec Ideal S1x128 .f32) (y : Fin 4000) (c : Fin 128) :
    k1_pay1 (F := Ideal) x0 x3 x1 x2 (ValueIdx.ix2 y c)
      = (∑ k : Fin 128, (x0 (ValueIdx.ix2 y k) + x3 (ValueIdx.ix2 (0 : Fin 1) k)) * x1 (ValueIdx.ix2 c k))
          + x2 (ValueIdx.ix2 (0 : Fin 1) c) := by
  unfold k1_pay1
  simp only [shapeCast_self]
  rw [ValueIdx.truncf_apply, ValueIdx.addf_apply, prod_apply, row_apply]
  refine congrArg (· + x2 (ValueIdx.ix2 (0 : Fin 1) c)) (Finset.sum_congr rfl fun k _ => ?_)
  rw [ValueIdx.truncf_apply, ValueIdx.addf_apply, row_apply, transpose_apply', ValueIdx.truncf_apply]

private theorem hz : (![0, 0] : Fin 2 → Nat) = fun _ => 0 := funext fun a => by fin_cases a <;> rfl

/-- What the body leaves in its output block, at row `y` and column `c`, from the four blocks it loads: the one
    store covers the block, and every load reads a whole block. -/
private theorem out_apply (x0 : Vec Ideal S4000x128 .f32) (x1 : Vec Ideal S128x128 .f32) (x2 : Vec Ideal S1x128 .f32)
    (x3 : Vec Ideal S1x128 .f32) (y : Fin 4000) (c : Fin 128) :
    out1_4 (F := Ideal) x0 x1 x2 x3 (ValueIdx.ix2 y c)
      = (∑ k : Fin 128, (x0 (ValueIdx.ix2 y k) + x3 (ValueIdx.ix2 (0 : Fin 1) k)) * x1 (ValueIdx.ix2 c k))
          + x2 (ValueIdx.ix2 (0 : Fin 1) c) := by
  unfold out1_4
  rw [View.canon_unit_zero hz]
  simp only [View.ld_unit_zero (S := S4000x128) hz, View.ld_unit_zero (S := S128x128) hz, View.ld_unit_zero (S := S1x128) hz]
  exact pay_apply x0 x1 x2 x3 y c

/-- The dense layer's entry with the identity before the product and after it, written out. -/
private theorem entry_eq (X : S100000x128.Idx → EReal) (W : S128x128.Idx → EReal) (b : S1x128.Idx → EReal)
    (p : S1x128.Idx → EReal) (r : Fin 100000) (n : Fin 128) :
    Cert.Dense.entry128 id id X W b p r n
      = (∑ k : Fin 128, (X (ValueIdx.ix2 r k) + p (ValueIdx.ix2 (0 : Fin 1) k)) * W (ValueIdx.ix2 n k))
          + b (ValueIdx.ix2 (0 : Fin 1) n) := rfl

/-- The index maps over the 25 points: the node matrix's and the output's block index is `(t, 0)`, the weights',
    the bias row's and the added row's is `(0, 0)`. -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section Blocks
variable (V : (c : Dev nD) → (b : Ref sig .tc) → Buf (Elt Ideal) ((c : Thread nD τ).loc b)) (c : Dev nD) (t : Fin cfg1.N)

/-- The node matrix's block at point `t` is rows `4000·t … 4000·t + 3999` of the matrix. -/
private theorem node_apply (y : Fin 4000) (k : Fin 128) (r : Fin 100000) (hr : r.val = 4000 * t.val + y.val) :
    (iblk1 (F := Ideal) V c 0 t : Vec Ideal S4000x128 .f32) (ValueIdx.ix2 y k)
      = (V c main_v43 : S100000x128.Idx → EReal) (ValueIdx.ix2 r k) := by
  obtain ⟨e0, e1, -⟩ := idx_facts t
  unfold iblk1
  rw [View.read_apply]
  show V c main_v43 _ = V c main_v43 _
  congr 1
  funext a
  apply Fin.ext
  match a with
  | ⟨0, _⟩ => show win1_0.index t (0 : Fin 2) * 4000 + 1 * y.val = r.val; omega
  | ⟨1, _⟩ => show win1_0.index t (1 : Fin 2) * 128 + 1 * k.val = k.val; omega

/-- The weights' block at every point is the whole matrix. -/
private theorem weight_apply (n k : Fin 128) :
    (iblk1 (F := Ideal) V c 1 t : Vec Ideal S128x128 .f32) (ValueIdx.ix2 n k)
      = (V c main_arg5 : S128x128.Idx → EReal) (ValueIdx.ix2 n k) := by
  obtain ⟨-, -, e0, e1, -⟩ := idx_facts t
  unfold iblk1
  rw [View.read_apply]
  show V c main_arg5 _ = V c main_arg5 _
  congr 1
  funext a
  apply Fin.ext
  match a with
  | ⟨0, _⟩ => show win1_1.index t (0 : Fin 2) * 128 + 1 * n.val = n.val; omega
  | ⟨1, _⟩ => show win1_1.index t (1 : Fin 2) * 128 + 1 * k.val = k.val; omega

/-- The bias row's block at every point is the whole row. -/
private theorem bias_apply (n : Fin 128) :
    (iblk1 (F := Ideal) V c 2 t : Vec Ideal S1x128 .f32) (ValueIdx.ix2 (0 : Fin 1) n)
      = (V c main_v46 : S1x128.Idx → EReal) (ValueIdx.ix2 (0 : Fin 1) n) := by
  obtain ⟨-, -, -, -, e0, e1, -⟩ := idx_facts t
  unfold iblk1
  rw [View.read_apply]
  show V c main_v46 _ = V c main_v46 _
  congr 1
  funext a
  apply Fin.ext
  match a with
  | ⟨0, _⟩ => show win1_2.index t (0 : Fin 2) * 1 + 1 * 0 = 0; omega
  | ⟨1, _⟩ => show win1_2.index t (1 : Fin 2) * 128 + 1 * n.val = n.val; omega

/-- The added row's block at every point is the whole row. -/
private theorem shift_apply (k : Fin 128) :
    (iblk1 (F := Ideal) V c 3 t : Vec Ideal S1x128 .f32) (ValueIdx.ix2 (0 : Fin 1) k)
      = (V c main_v47 : S1x128.Idx → EReal) (ValueIdx.ix2 (0 : Fin 1) k) := by
  obtain ⟨-, -, -, -, -, -, e0, e1, -⟩ := idx_facts t
  unfold iblk1
  rw [View.read_apply]
  show V c main_v47 _ = V c main_v47 _
  congr 1
  funext a
  apply Fin.ext
  match a with
  | ⟨0, _⟩ => show win1_3.index t (0 : Fin 2) * 1 + 1 * 0 = 0; omega
  | ⟨1, _⟩ => show win1_3.index t (1 : Fin 2) * 128 + 1 * k.val = k.val; omega

/-- What point `t` writes back is block `t` of the dense layer of the arrays the region finds. -/
private theorem flushed_eq :
    (dat1 (F := Ideal) V c).flushed 4 t = ((cfg1.win 4).blk t).view.read (Elt Ideal)
      (Cert.Dense.layer128 id id (V c main_v43) (V c main_arg5) (V c main_v46) (V c main_v47)) := by
  show (cfg1.win 4).cut (grid1.coords t) ((dat1 (F := Ideal) V c).after 4 t) = _
  rw [after1_4]
  funext j
  obtain ⟨y, n, rfl⟩ : ∃ (y : Fin 4000) (n : Fin 128), j = ValueIdx.ix2 y n := ⟨j 0, j 1, ValueIdx.eq_ix2 j⟩
  obtain ⟨-, -, -, -, -, -, -, -, e0, e1⟩ := idx_facts t
  have hN : cfg1.N = 25 := rfl
  have ht := t.isLt
  have hy := y.isLt
  have hemb : ((cfg1.win 4).blk t).view.emb (ValueIdx.ix2 y n)
      = ValueIdx.ix2 (⟨4000 * t.val + y.val, by omega⟩ : Fin 100000) n := by
    funext a
    apply Fin.ext
    match a with
    | ⟨0, _⟩ => show win1_4.index t (0 : Fin 2) * 4000 + 1 * y.val = 4000 * t.val + y.val; omega
    | ⟨1, _⟩ => show win1_4.index t (1 : Fin 2) * 128 + 1 * n.val = n.val; omega
  show out1_4 (F := Ideal) (iblk1 V c 0 t) (iblk1 V c 1 t) (iblk1 V c 2 t) (iblk1 V c 3 t) (ValueIdx.ix2 y n)
      = Cert.Dense.layer128 id id (V c main_v43) (V c main_arg5) (V c main_v46) (V c main_v47)
          (((cfg1.win 4).blk t).view.emb (ValueIdx.ix2 y n))
  rw [hemb, Cert.Dense.layer128_apply]
  refine (out_apply _ _ _ _ y n).trans ?_
  refine Eq.trans ?_ (entry_eq _ _ _ _ _ _).symm
  refine congrArg₂ (· + ·) (Finset.sum_congr rfl fun k _ => ?_) (bias_apply V c t n)
  exact congrArg₂ (· * ·) (congrArg₂ (· + ·) (node_apply V c t y k _ rfl) (shift_apply V c t k)) (weight_apply V c t n k)

end Blocks

/-- Row `r` of the output lies in the block of the point with block index `r / 4000`. -/
private theorem cover (i : S100000x128.Idx) :
    ∃ t : Fin cfg1.N, (cfg1.win 4).flush t = true ∧ i ∈ ((cfg1.win 4).blk t).view.set := by
  have h0 : (i 0).val < 100000 := (i 0).isLt
  have h1 : (i 1).val < 128 := (i 1).isLt
  have hN : cfg1.N = 25 := rfl
  obtain ⟨t, ht⟩ : ∃ t : Fin cfg1.N, t.val = (i 0).val / 4000 := ⟨⟨(i 0).val / 4000, by omega⟩, rfl⟩
  obtain ⟨-, -, -, -, -, -, -, -, e0, e1⟩ := idx_facts t
  refine ⟨t, flush1_4 t, ?_⟩
  show i ∈ ((View.whole main_v48).slice (win1_4.rect t)).set
  rw [View.set_slice_whole, Rect.mem_set_unit]
  intro a
  match a with
  | ⟨0, _⟩ =>
    show win1_4.index t (0 : Fin 2) * 4000 ≤ (i 0).val ∧ (i 0).val < win1_4.index t (0 : Fin 2) * 4000 + 4000
    omega
  | ⟨1, _⟩ =>
    show win1_4.index t (1 : Fin 2) * 128 ≤ (i 1).val ∧ (i 1).val < win1_4.index t (1 : Fin 2) * 128 + 128
    omega

/-- After the region's 25 points the output array is the dense layer of the arrays the region found: every point
    writes back its block of it, and the blocks cover the array. -/
theorem array1 (V : (c : Dev nD) → (b : Ref sig .tc) → Buf (Elt Ideal) ((c : Thread nD τ).loc b)) (c : Dev nD) :
    (dat1 (F := Ideal) V c).arrAt 4 cfg1.N
      = Cert.Dense.layer128 id id (V c main_v43) (V c main_arg5) (V c main_v46) (V c main_v47) :=
  (dat1 (F := Ideal) V c).arrAt_eq_of_cover 4 _ (fun t _ => flushed_eq V c t) cover

end Cert.KernelIdeal.Tiles

end
-- ==== Proof.Tile2.lean ====
import proofs.«157222_j61091614818664_2_alg».proof.Proof.Gen.KernelIdeal.Frame
import proofs.«157222_j61091614818664_2_alg».proof.Proof.Dense
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Tiles

open Idealize.ShloMosaic Idealize.ShloMosaic.TcCoe Idealize.SL.Sem Cert.KernelIdeal Cert.KernelIdeal.Gen
open Idealize.ShloMosaic.Pipeline (Dat Cfg Window BodyObligation cellOf)

/-- The left operand's index at output index `i` and contraction position `q`: the output's row … -/
private theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and the contraction position's one coordinate. -/
private theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's index: the contraction position's one coordinate … -/
private theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and the output's column. -/
private theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product into the zero accumulator, read at row `y` and column `c`: the plain sum over the contracted
    axis of the left operand's row `y` against the right operand's column `c`. -/
private theorem prod_apply (lhs : FVec Ideal S4000x128 .bf16) (rhs : FVec Ideal S128x128 .bf16) (y : Fin 4000) (c : Fin 128) :
    matmul (F := Ideal) dot_S4000x128_S128x128_S4000x128_1_0_0_1_n_n none lhs rhs
        (constant (F := Ideal) S4000x128 .f32 0x00000000#32) (ValueIdx.ix2 y c)
      = ∑ k : Fin 128, lhs (ValueIdx.ix2 y k) * rhs (ValueIdx.ix2 k c) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ValueIdx.ix2 y c) ((ValueIdx.contrEquiv1 dot_S4000x128_S128x128_S4000x128_1_0_0_1_n_n 128 rfl rfl).symm k) = ValueIdx.ix2 y k :=
    funext fun a => Fin.ext (by
      match a with
      | ⟨0, _⟩ => exact lhs_row _ _
      | ⟨1, _⟩ => exact (lhs_col _ _).trans hk)
  have er : dot_S4000x128_S128x128_S4000x128_1_0_0_1_n_n.rhsIdx (ValueIdx.ix2 y c) ((ValueIdx.contrEquiv1 dot_S4000x128_S128x128_S4000x128_1_0_0_1_n_n 128 rfl rfl).symm k) = ValueIdx.ix2 k c :=
    funext fun a => Fin.ext (by
      match a with
      | ⟨0, _⟩ => exact (rhs_row _ _).trans hk
      | ⟨1, _⟩ => exact rhs_col _ _)
  rw [el, er]

/-- A row broadcast down the block's rows reads the row's entry in the same column. -/
private theorem row_apply (v : Vec Ideal S1x128 .f32) (y : Fin 4000) (c : Fin 128) :
    broadcastTo S4000x128 v broadcasts_S1x128_S4000x128 (ValueIdx.ix2 y c) = v (ValueIdx.ix2 (0 : Fin 1) c) :=
  broadcastTo_apply v broadcasts_S1x128_S4000x128 (ValueIdx.ix2 y c) (ValueIdx.ix2 (0 : Fin 1) c) (fun a => match a with
    | ⟨0, _⟩ => by show 0 = if (1 : Nat) = 1 then 0 else y.val; rw [if_pos rfl]
    | ⟨1, _⟩ => by show c.val = if (128 : Nat) = 1 then 0 else c.val; rw [if_neg (by decide)])

/-- The transposed weights at `(k, c)` are the weights at `(c, k)`. -/
private theorem transpose_apply' (w : FVec Ideal S128x128 .bf16) (k c : Fin 128) :
    transpose S128x128 [1, 0] w transposes_S128x128_p1_0_S128x128 (ValueIdx.ix2 k c) = w (ValueIdx.ix2 c k) :=
  transpose_apply [1, 0] w transposes_S128x128_p1_0_S128x128 (ValueIdx.ix2 k c) (ValueIdx.ix2 c k) (fun b => match b with
    | ⟨0, _⟩ => rfl
    | ⟨1, _⟩ => rfl)

/-- The body's arithmetic at row `y`, column `c` of its output block: the row of the node block plus the added row,
    rectified entry by entry, against the weights' row `c`, plus the bias at `c`. The narrowings are the identity on
    extended reals, and the word of the rectifier's splat is zero. -/
private theorem pay_apply (x0 : Vec Ideal S4000x128 .f32) (x1 : Vec Ideal S128x128 .f32) (x2 : Vec Ideal S1x128 .f32)
    (x3 : Vec Ideal S1x128 .f32) (y : Fin 4000) (c : Fin 128) :
    k2_pay1 (F := Ideal) x0 x3 x1 x2 (ValueIdx.ix2 y c)
      = (∑ k : Fin 128, Cert.Dense.relu (x0 (ValueIdx.ix2 y k) + x3 (ValueIdx.ix2 (0 : Fin 1) k)) * x1 (ValueIdx.ix2 c k))
          + x2 (ValueIdx.ix2 (0 : Fin 1) c) := by
  unfold k2_pay1
  simp only [shapeCast_self]
  rw [ValueIdx.truncf_apply, ValueIdx.addf_apply, prod_apply, row_apply]
  refine congrArg (· + x2 (ValueIdx.ix2 (0 : Fin 1) c)) (Finset.sum_congr rfl fun k _ => ?_)
  rw [ValueIdx.truncf_apply, ValueIdx.maximumf_apply, ValueIdx.addf_apply, row_apply, ValueIdx.broadcast_apply,
    transpose_apply', ValueIdx.truncf_apply]
  show max _ (Ideal.ofBits .f32 0x00000000#32) * _ = _
  rw [Ideal.ofBits_zero_f32]
  rfl

private theorem hz : (![0, 0] : Fin 2 → Nat) = fun _ => 0 := funext fun a => by fin_cases a <;> rfl

/-- What the body leaves in its output block, at row `y` and column `c`, from the four blocks it loads: the one
    store covers the block, and every load reads a whole block. -/
private theorem out_apply (x0 : Vec Ideal S4000x128 .f32) (x1 : Vec Ideal S128x128 .f32) (x2 : Vec Ideal S1x128 .f32)
    (x3 : Vec Ideal S1x128 .f32) (y : Fin 4000) (c : Fin 128) :
    out2_4 (F := Ideal) x0 x1 x2 x3 (ValueIdx.ix2 y c)
      = (∑ k : Fin 128, Cert.Dense.relu (x0 (ValueIdx.ix2 y k) + x3 (ValueIdx.ix2 (0 : Fin 1) k)) * x1 (ValueIdx.ix2 c k))
          + x2 (ValueIdx.ix2 (0 : Fin 1) c) := by
  unfold out2_4
  rw [View.canon_unit_zero hz]
  simp only [View.ld_unit_zero (S := S4000x128) hz, View.ld_unit_zero (S := S128x128) hz, View.ld_unit_zero (S := S1x128) hz]
  exact pay_apply x0 x1 x2 x3 y c

/-- The dense layer's entry with the rectifier before the product and the identity after it, written out. -/
private theorem entry_eq (X : S100000x128.Idx → EReal) (W : S128x128.Idx → EReal) (b : S1x128.Idx → EReal)
    (p : S1x128.Idx → EReal) (r : Fin 100000) (n : Fin 128) :
    Cert.Dense.entry128 Cert.Dense.relu id X W b p r n
      = (∑ k : Fin 128, Cert.Dense.relu (X (ValueIdx.ix2 r k) + p (ValueIdx.ix2 (0 : Fin 1) k)) * W (ValueIdx.ix2 n k))
          + b (ValueIdx.ix2 (0 : Fin 1) n) := rfl

/-- The index maps over the 25 points: the node matrix's and the output's block index is `(t, 0)`, the weights',
    the bias row's and the added row's is `(0, 0)`. -/
private theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

section Blocks
variable (V : (c : Dev nD) → (b : Ref sig .tc) → Buf (Elt Ideal) ((c : Thread nD τ).loc b)) (c : Dev nD) (t : Fin cfg2.N)

/-- The node matrix's block at point `t` is rows `4000·t … 4000·t + 3999` of the matrix. -/
private theorem node_apply (y : Fin 4000) (k : Fin 128) (r : Fin 100000) (hr : r.val = 4000 * t.val + y.val) :
    (iblk2 (F := Ideal) V c 0 t : Vec Ideal S4000x128 .f32) (ValueIdx.ix2 y k)
      = (V c main_v62 : S100000x128.Idx → EReal) (ValueIdx.ix2 r k) := by
  obtain ⟨e0, e1, -⟩ := idx_facts t
  unfold iblk2
  rw [View.read_apply]
  show V c main_v62 _ = V c main_v62 _
  congr 1
  funext a
  apply Fin.ext
  match a with
  | ⟨0, _⟩ => show win2_0.index t (0 : Fin 2) * 4000 + 1 * y.val = r.val; omega
  | ⟨1, _⟩ => show win2_0.index t (1 : Fin 2) * 128 + 1 * k.val = k.val; omega

/-- The weights' block at every point is the whole matrix. -/
private theorem weight_apply (n k : Fin 128) :
    (iblk2 (F := Ideal) V c 1 t : Vec Ideal S128x128 .f32) (ValueIdx.ix2 n k)
      = (V c main_arg7 : S128x128.Idx → EReal) (ValueIdx.ix2 n k) := by
  obtain ⟨-, -, e0, e1, -⟩ := idx_facts t
  unfold iblk2
  rw [View.read_apply]
  show V c main_arg7 _ = V c main_arg7 _
  congr 1
  funext a
  apply Fin.ext
  match a with
  | ⟨0, _⟩ => show win2_1.index t (0 : Fin 2) * 128 + 1 * n.val = n.val; omega
  | ⟨1, _⟩ => show win2_1.index t (1 : Fin 2) * 128 + 1 * k.val = k.val; omega

/-- The bias row's block at every point is the whole row. -/
private theorem bias_apply (n : Fin 128) :
    (iblk2 (F := Ideal) V c 2 t : Vec Ideal S1x128 .f32) (ValueIdx.ix2 (0 : Fin 1) n)
      = (V c main_v64 : S1x128.Idx → EReal) (ValueIdx.ix2 (0 : Fin 1) n) := by
  obtain ⟨-, -, -, -, e0, e1, -⟩ := idx_facts t
  unfold iblk2
  rw [View.read_apply]
  show V c main_v64 _ = V c main_v64 _
  congr 1
  funext a
  apply Fin.ext
  match a with
  | ⟨0, _⟩ => show win2_2.index t (0 : Fin 2) * 1 + 1 * 0 = 0; omega
  | ⟨1, _⟩ => show win2_2.index t (1 : Fin 2) * 128 + 1 * n.val = n.val; omega

/-- The added row's block at every point is the whole row. -/
private theorem shift_apply (k : Fin 128) :
    (iblk2 (F := Ideal) V c 3 t : Vec Ideal S1x128 .f32) (ValueIdx.ix2 (0 : Fin 1) k)
      = (V c main_v65 : S1x128.Idx → EReal) (ValueIdx.ix2 (0 : Fin 1) k) := by
  obtain ⟨-, -, -, -, -, -, e0, e1, -⟩ := idx_facts t
  unfold iblk2
  rw [View.read_apply]
  show V c main_v65 _ = V c main_v65 _
  congr 1
  funext a
  apply Fin.ext
  match a with
  | ⟨0, _⟩ => show win2_3.index t (0 : Fin 2) * 1 + 1 * 0 = 0; omega
  | ⟨1, _⟩ => show win2_3.index t (1 : Fin 2) * 128 + 1 * k.val = k.val; omega

/-- What point `t` writes back is block `t` of the dense layer of the arrays the region finds. -/
private theorem flushed_eq :
    (dat2 (F := Ideal) V c).flushed 4 t = ((cfg2.win 4).blk t).view.read (Elt Ideal)
      (Cert.Dense.layer128 Cert.Dense.relu id (V c main_v62) (V c main_arg7) (V c main_v64) (V c main_v65)) := by
  show (cfg2.win 4).cut (grid2.coords t) ((dat2 (F := Ideal) V c).after 4 t) = _
  rw [after2_4]
  funext j
  obtain ⟨y, n, rfl⟩ : ∃ (y : Fin 4000) (n : Fin 128), j = ValueIdx.ix2 y n := ⟨j 0, j 1, ValueIdx.eq_ix2 j⟩
  obtain ⟨-, -, -, -, -, -, -, -, e0, e1⟩ := idx_facts t
  have hN : cfg2.N = 25 := rfl
  have ht := t.isLt
  have hy := y.isLt
  have hemb : ((cfg2.win 4).blk t).view.emb (ValueIdx.ix2 y n)
      = ValueIdx.ix2 (⟨4000 * t.val + y.val, by omega⟩ : Fin 100000) n := by
    funext a
    apply Fin.ext
    match a with
    | ⟨0, _⟩ => show win2_4.index t (0 : Fin 2) * 4000 + 1 * y.val = 4000 * t.val + y.val; omega
    | ⟨1, _⟩ => show win2_4.index t (1 : Fin 2) * 128 + 1 * n.val = n.val; omega
  show out2_4 (F := Ideal) (iblk2 V c 0 t) (iblk2 V c 1 t) (iblk2 V c 2 t) (iblk2 V c 3 t) (ValueIdx.ix2 y n)
      = Cert.Dense.layer128 Cert.Dense.relu id (V c main_v62) (V c main_arg7) (V c main_v64) (V c main_v65)
          (((cfg2.win 4).blk t).view.emb (ValueIdx.ix2 y n))
  rw [hemb, Cert.Dense.layer128_apply]
  refine (out_apply _ _ _ _ y n).trans ?_
  refine Eq.trans ?_ (entry_eq _ _ _ _ _ _).symm
  refine congrArg₂ (· + ·) (Finset.sum_congr rfl fun k _ => ?_) (bias_apply V c t n)
  exact congrArg₂ (· * ·) (congrArg Cert.Dense.relu (congrArg₂ (· + ·) (node_apply V c t y k _ rfl) (shift_apply V c t k))) (weight_apply V c t n k)

end Blocks

/-- Row `r` of the output lies in the block of the point with block index `r / 4000`. -/
private theorem cover (i : S100000x128.Idx) :
    ∃ t : Fin cfg2.N, (cfg2.win 4).flush t = true ∧ i ∈ ((cfg2.win 4).blk t).view.set := by
  have h0 : (i 0).val < 100000 := (i 0).isLt
  have h1 : (i 1).val < 128 := (i 1).isLt
  have hN : cfg2.N = 25 := rfl
  obtain ⟨t, ht⟩ : ∃ t : Fin cfg2.N, t.val = (i 0).val / 4000 := ⟨⟨(i 0).val / 4000, by omega⟩, rfl⟩
  obtain ⟨-, -, -, -, -, -, -, -, e0, e1⟩ := idx_facts t
  refine ⟨t, flush2_4 t, ?_⟩
  show i ∈ ((View.whole main_v66).slice (win2_4.rect t)).set
  rw [View.set_slice_whole, Rect.mem_set_unit]
  intro a
  match a with
  | ⟨0, _⟩ =>
    show win2_4.index t (0 : Fin 2) * 4000 ≤ (i 0).val ∧ (i 0).val < win2_4.index t (0 : Fin 2) * 4000 + 4000
    omega
  | ⟨1, _⟩ =>
    show win2_4.index t (1 : Fin 2) * 128 ≤ (i 1).val ∧ (i 1).val < win2_4.index t (1 : Fin 2) * 128 + 128
    omega

/-- After the region's 25 points the output array is the dense layer of the arrays the region found: every point
    writes back its block of it, and the blocks cover the array. -/
theorem array2 (V : (c : Dev nD) → (b : Ref sig .tc) → Buf (Elt Ideal) ((c : Thread nD τ).loc b)) (c : Dev nD) :
    (dat2 (F := Ideal) V c).arrAt 4 cfg2.N
      = Cert.Dense.layer128 Cert.Dense.relu id (V c main_v62) (V c main_arg7) (V c main_v64) (V c main_v65) :=
  (dat2 (F := Ideal) V c).arrAt_eq_of_cover 4 _ (fun t _ => flushed_eq V c t) cover

end Cert.KernelIdeal.Tiles

end
-- ==== Proof.Tile3.lean ====
/-
  The last dense layer, tile by tile.

  The layer runs over a grid of 25 points; point t takes rows 4000·t … 4000·t + 3999 of the node matrix
  (128 input features), the whole weight matrix, the whole bias row and the whole row added to the nodes, and
  leaves the same rows of the output. Here: the body's result at an entry of its block is
  Σ_k (x[y,k] + p[0,k]) · W[c,k] + b[0,c]; read through the blocks' places in the arrays this is the entry of
  the whole-array layer in row 4000·t + y; the 25 row blocks cover the output, so the output array ends as the
  whole-array layer.
-/
import proofs.«157222_j61091614818664_2_alg».proof.Proof.Gen.KernelIdeal.Frame
import proofs.«157222_j61091614818664_2_alg».proof.Proof.Dense
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Tiles

open Idealize.ShloMosaic Idealize.ShloMosaic.TcCoe Idealize.SL.Sem Cert.KernelIdeal Cert.KernelIdeal.Gen
open Idealize.ShloMosaic.Pipeline (Dat Cfg Window BodyObligation cellOf)

/-- A row vector spread over 4000 rows reads, in any row, its own entry of that column. -/
private theorem row128_apply {α : Type} (v : S1x128.Idx → α) (h1 : S1x128.ShapeCasts S1x128) (h2 : S1x128.Broadcasts S4000x128)
    (y : Fin 4000) (k : Fin 128) :
    broadcastTo S4000x128 (shapeCast S1x128 v h1) h2 (ValueIdx.ix2 y k) = v (ValueIdx.ix2 (0 : Fin 1) k) := by
  rw [shapeCast_self]
  exact broadcastTo_apply v h2 (ValueIdx.ix2 y k) (ValueIdx.ix2 (0 : Fin 1) k) (fun a => match a with
    | ⟨0, _⟩ => by show 0 = if (1 : Nat) = 1 then 0 else y.val; rw [if_pos rfl]
    | ⟨1, _⟩ => by show k.val = if (128 : Nat) = 1 then 0 else k.val; rw [if_neg (by decide)])

private theorem tr_apply {α : Type} (w : S128x128.Idx → α) (h : S128x128.Transposes [1, 0] S128x128) (k : Fin 128) (c : Fin 128) :
    transpose S128x128 [1, 0] w h (ValueIdx.ix2 k c) = w (ValueIdx.ix2 c k) :=
  transpose_apply [1, 0] w h (ValueIdx.ix2 k c) (ValueIdx.ix2 c k) (fun b => match b with
    | ⟨0, _⟩ => rfl
    | ⟨1, _⟩ => rfl)

private theorem lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
private theorem lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
private theorem rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
private theorem rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product into a zero accumulator, at an entry, is the plain sum over the contracted axis. -/
private theorem mm_apply (lhs : FVec Ideal S4000x128 .bf16) (rhs : FVec Ideal S128x128 .bf16) (y : Fin 4000) (c : Fin 128) :
    FloatOps.matmul dot_S4000x128_S128x128_S4000x128_1_0_0_1_n_n none lhs rhs (constant S4000x128 .f32 0x00000000#32) (ValueIdx.ix2 y c)
      = ∑ k : Fin 128, lhs (ValueIdx.ix2 y k) * rhs (ValueIdx.ix2 k c) := by
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ValueIdx.ix2 y c) ((ValueIdx.contrEquiv1 dot_S4000x128_S128x128_S4000x128_1_0_0_1_n_n 128 rfl rfl).symm k) = ValueIdx.ix2 y k := funext fun a => Fin.ext (by
    match a with
    | ⟨0, _⟩ => exact lhs_0 _ _
    | ⟨1, _⟩ => exact (lhs_1 _ _).trans hk)
  have er : dot_S4000x128_S128x128_S4000x128_1_0_0_1_n_n.rhsIdx (ValueIdx.ix2 y c) ((ValueIdx.contrEquiv1 dot_S4000x128_S128x128_S4000x128_1_0_0_1_n_n 128 rfl rfl).symm k) = ValueIdx.ix2 k c := funext fun a => Fin.ext (by
    match a with
    | ⟨0, _⟩ => exact (rhs_0 _ _).trans hk
    | ⟨1, _⟩ => exact rhs_1 _ _)
  rw [el, er]

/-- The body's result at row y, column c of its block: the sum over the input features plus the bias. -/
private theorem pay_entry (x0 : Vec Ideal S4000x128 .f32) (x1 : Vec Ideal S128x128 .f32)
    (x2 : Vec Ideal S1x128 .f32) (x3 : Vec Ideal S1x128 .f32) (y : Fin 4000) (c : Fin 128) :
    k3_pay1 (F := Ideal) x0 x3 x1 x2 (ValueIdx.ix2 y c)
      = id ((∑ k : Fin 128, id (x0 (ValueIdx.ix2 y k) + x3 (ValueIdx.ix2 (0 : Fin 1) k)) * x1 (ValueIdx.ix2 c k))
          + x2 (ValueIdx.ix2 (0 : Fin 1) c)) := by
  unfold k3_pay1
  rw [shapeCast_self x0]
  refine (congrArg₂ (fun a b : EReal => a + b) (mm_apply _ _ y c) (row128_apply x2 _ _ y c)).trans ?_
  refine congrArg (fun a : EReal => id (a + x2 (ValueIdx.ix2 (0 : Fin 1) c))) (Finset.sum_congr rfl fun k _ => ?_)
  exact congrArg₂ (fun a b : EReal => (x0 (ValueIdx.ix2 y k) + a) * b) (row128_apply x3 _ _ y k) (tr_apply _ _ k c)

private theorem hz : (![0, 0] : Fin 2 → Nat) = fun _ => 0 := funext fun a => by fin_cases a <;> rfl

/-- The block index of every window at every point of the grid: the node matrix and the output move one block of
    rows per point; the weights, the bias row and the added row stay whole. -/
private theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row y of the node matrix's block at point t is row 4000·t + y of the matrix. -/
private theorem blk_x (A : S100000x128.Idx → EReal) (t : Fin cfg3.N) (y : Fin 4000) (k : Fin 128) (r : Fin 100000)
    (hr : r.val = t.val * 4000 + y.val) :
    ((cfg3.win 0).blk t).view.read (Elt Ideal) A (ValueIdx.ix2 y k) = A (ValueIdx.ix2 r k) := by
  obtain ⟨e0, e1, -⟩ := idx_facts t
  show A (((cfg3.win 0).blk t).view.emb (ValueIdx.ix2 y k)) = A (ValueIdx.ix2 r k)
  refine congrArg A (funext fun a => Fin.ext ?_)
  match a with
  | ⟨0, _⟩ => show win3_0.index t (0 : Fin 2) * 4000 + 1 * y.val = r.val; omega
  | ⟨1, _⟩ => show win3_0.index t (1 : Fin 2) * 128 + 1 * k.val = k.val; omega

/-- The weights' window is the whole matrix at every point. -/
private theorem blk_w (A : S128x128.Idx → EReal) (t : Fin cfg3.N) (j : S128x128.Idx) :
    ((cfg3.win 1).blk t).view.read (Elt Ideal) A j = A j := by
  obtain ⟨-, -, e0, e1, -⟩ := idx_facts t
  show A (((cfg3.win 1).blk t).view.emb j) = A j
  refine congrArg A (funext fun a => Fin.ext ?_)
  match a with
  | ⟨0, _⟩ => show win3_1.index t (0 : Fin 2) * 128 + 1 * (j 0).val = (j 0).val; omega
  | ⟨1, _⟩ => show win3_1.index t (1 : Fin 2) * 128 + 1 * (j 1).val = (j 1).val; omega

/-- The bias row's window is the whole row at every point. -/
private theorem blk_b (A : S1x128.Idx → EReal) (t : Fin cfg3.N) (j : S1x128.Idx) :
    ((cfg3.win 2).blk t).view.read (Elt Ideal) A j = A j := by
  obtain ⟨-, -, -, -, e0, e1, -⟩ := idx_facts t
  show A (((cfg3.win 2).blk t).view.emb j) = A j
  refine congrArg A (funext fun a => Fin.ext ?_)
  match a with
  | ⟨0, _⟩ => show win3_2.index t (0 : Fin 2) * 1 + 1 * (j 0).val = (j 0).val; omega
  | ⟨1, _⟩ => show win3_2.index t (1 : Fin 2) * 128 + 1 * (j 1).val = (j 1).val; omega

/-- The added row's window is the whole row at every point. -/
private theorem blk_p (A : S1x128.Idx → EReal) (t : Fin cfg3.N) (j : S1x128.Idx) :
    ((cfg3.win 3).blk t).view.read (Elt Ideal) A j = A j := by
  obtain ⟨-, -, -, -, -, -, e0, e1, -⟩ := idx_facts t
  show A (((cfg3.win 3).blk t).view.emb j) = A j
  refine congrArg A (funext fun a => Fin.ext ?_)
  match a with
  | ⟨0, _⟩ => show win3_3.index t (0 : Fin 2) * 1 + 1 * (j 0).val = (j 0).val; omega
  | ⟨1, _⟩ => show win3_3.index t (1 : Fin 2) * 128 + 1 * (j 1).val = (j 1).val; omega

/-- Row y of the output's block at point t is row 4000·t + y of the output. -/
private theorem blk_o (G : S100000x128.Idx → EReal) (t : Fin cfg3.N) (y : Fin 4000) (cc : Fin 128) (r : Fin 100000)
    (hr : r.val = t.val * 4000 + y.val) :
    ((cfg3.win 4).blk t).view.read (Elt Ideal) G (ValueIdx.ix2 y cc) = G (ValueIdx.ix2 r cc) := by
  obtain ⟨-, -, -, -, -, -, -, -, e0, e1⟩ := idx_facts t
  show G (((cfg3.win 4).blk t).view.emb (ValueIdx.ix2 y cc)) = G (ValueIdx.ix2 r cc)
  refine congrArg G (funext fun a => Fin.ext ?_)
  match a with
  | ⟨0, _⟩ => show win3_4.index t (0 : Fin 2) * 4000 + 1 * y.val = r.val; omega
  | ⟨1, _⟩ => show win3_4.index t (1 : Fin 2) * 128 + 1 * cc.val = cc.val; omega

/-- What point t writes back is block t of the dense layer of the arrays the region found. -/
private theorem flushed_eq (V : (c : Dev nD) → (b : Ref sig .tc) → Buf (Elt Ideal) ((c : Thread nD τ).loc b)) (c : Dev nD)
    (t : Fin cfg3.N) :
    (dat3 (F := Ideal) V c).flushed 4 t = ((cfg3.win 4).blk t).view.read (Elt Ideal)
      (Cert.Dense.layer128 id id (V c main_v80) (V c main_arg9) (V c main_v81) (V c main_v82)) := by
  show (cfg3.win 4).cut (grid3.coords t) ((dat3 V c).after 4 t) = _
  rw [after3_4]
  unfold out3_4
  rw [View.canon_unit_zero hz]
  simp only [View.ld_unit_zero (S := S4000x128) hz, View.ld_unit_zero (S := S128x128) hz, View.ld_unit_zero (S := S1x128) hz]
  refine funext fun (j : S4000x128.Idx) => ?_
  obtain ⟨y, cc, rfl⟩ : ∃ (y : Fin 4000) (cc : Fin 128), j = ValueIdx.ix2 y cc := ⟨j 0, j 1, ValueIdx.eq_ix2 j⟩
  have ht : t.val < 25 := t.isLt
  have hy : y.val < 4000 := y.isLt
  refine (pay_entry _ _ _ _ y cc).trans ?_
  refine Eq.trans ?_ (blk_o _ t y cc ⟨t.val * 4000 + y.val, by omega⟩ rfl).symm
  rw [Cert.Dense.layer128_apply]
  unfold Cert.Dense.entry128
  refine congrArg id (congrArg₂ (fun a b : EReal => a + b) (Finset.sum_congr rfl fun k _ => ?_) (blk_b _ t _))
  exact congrArg₂ (fun a b : EReal => a * b)
    (congrArg₂ (fun a b : EReal => id (a + b)) (blk_x _ t y k _ rfl) (blk_p _ t _)) (blk_w _ t _)

/-- Every row of the output lies in the block of the point that handles its 4000 rows. -/
private theorem covered (i : S100000x128.Idx) :
    ∃ t : Fin cfg3.N, (cfg3.win 4).flush t = true ∧ i ∈ ((cfg3.win 4).blk t).view.set := by
  have h0 : (i 0).val < 100000 := (i 0).isLt
  have h1 : (i 1).val < 128 := (i 1).isLt
  let t : Fin cfg3.N := ⟨(i 0).val / 4000, by show (i 0).val / 4000 < 25; omega⟩
  obtain ⟨-, -, -, -, -, -, -, -, e0, e1⟩ := idx_facts t
  have et : t.val = (i 0).val / 4000 := rfl
  refine ⟨t, flush3_4 t, ?_⟩
  show i ∈ ((View.whole main_v83).slice (win3_4.rect t)).set
  rw [View.set_slice_whole, Rect.mem_set_unit]
  intro a
  match a with
  | ⟨0, _⟩ => show win3_4.index t (0 : Fin 2) * 4000 ≤ (i 0).val ∧ (i 0).val < win3_4.index t (0 : Fin 2) * 4000 + 4000; omega
  | ⟨1, _⟩ => show win3_4.index t (1 : Fin 2) * 128 ≤ (i 1).val ∧ (i 1).val < win3_4.index t (1 : Fin 2) * 128 + 128; omega

/-- The output array after the region is the dense layer of the arrays the region found. -/
theorem array3 (V : (c : Dev nD) → (b : Ref sig .tc) → Buf (Elt Ideal) ((c : Thread nD τ).loc b)) (c : Dev nD) :
    (dat3 (F := Ideal) V c).arrAt 4 cfg3.N
      = Cert.Dense.layer128 id id (V c main_v80) (V c main_arg9) (V c main_v81) (V c main_v82) :=
  (dat3 (F := Ideal) V c).arrAt_eq_of_cover 4 _ (fun t _ => flushed_eq V c t) covered

end Cert.KernelIdeal.Tiles

end
-- ==== Proof.Network.lean ====
/-
  The tiled program's result as ONE function of its eleven argument arrays.

  The network is: a dense input layer with a rectifier; a projection; message passing along the
  edges (each edge gathers its source node's row, scales it by the edge's symmetric normalization,
  and the rows are summed into the destination nodes — the self-loops are the last 100000 edges); a
  second projection of the rectified, biased aggregate; message passing again; and a biased output
  projection. The edge lists with the self-loops appended (`sources`, `targets`) and the
  normalization (`weights`) are computed from the edge arrays alone, by the same whole-array
  operations in both programs; they are taken here as the reference's own stage functions, so that
  nothing about them has to be opened. The bias of a layer enters either as the row `b` added after
  the product or as the row `p` added before the next layer's product.
-/
import proofs.«157222_j61091614818664_2_alg».proof.Proof.Gen.KernelIdeal
import proofs.«157222_j61091614818664_2_alg».proof.Proof.Gen.ReferenceIdeal.Read
import proofs.«157222_j61091614818664_2_alg».proof.Proof.Dense

noncomputable section

namespace Cert.Network

open Idealize.ShloMosaic Cert.KernelIdeal Cert.KernelIdeal.Gen

/-- The source node of every edge, the self-loops appended. -/
def sources (a1 : IVec S2x1600000 32) : IVec S1700000 32 := Cert.ReferenceIdeal.Read.val_main_v16 (F := Ideal) a1
/-- The destination node of every edge, the self-loops appended. -/
def targets (a1 : IVec S2x1600000 32) : IVec S1700000 32 := Cert.ReferenceIdeal.Read.val_main_v17 (F := Ideal) a1
/-- The symmetric normalization of every edge: `dinv[src] · w · dinv[dst]`. -/
def weights (a1 : IVec S2x1600000 32) (a2 : FVec Ideal S1600000x8 .f32) : FVec Ideal S1700000 .f32 :=
  Cert.ReferenceIdeal.Read.val_main_v45 (F := Ideal) a1 a2

/-- A vector kept as a row `[1,128]`. -/
def row (v : FVec Ideal S128 .f32) : FVec Ideal S1x128 .f32 := shapeCast S1x128 v shapeCasts_S128_S1x128
/-- The zero row `[1,128]`. -/
def zeroRow128 : FVec Ideal S1x128 .f32 :=
  shapeCast S1x128 (broadcastInDim S128 ![] bcast_S_S128 (constant (F := Ideal) S_ .f32 0x00000000#32)) shapeCasts_S128_S1x128
/-- The zero row `[1,256]`. -/
def zeroRow256 : FVec Ideal S1x256 .f32 :=
  shapeCast S1x256 (broadcastInDim S256 ![] bcast_S_S256 (constant (F := Ideal) S_ .f32 0x00000000#32)) shapeCasts_S256_S1x256

/-- Message passing: every edge gathers its source node's row (a negative index counted from the end),
    scales it by the edge's normalization, and the rows are summed into the destination nodes. -/
def aggregate (xw : FVec Ideal S100000x128 .bf16) (src dst : IVec S1700000 32) (nrm : FVec Ideal S1700000 .f32) :
    FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (mulf (extf .f32 (Host.gather gather_S100000x128_S1700000x1_S1700000x128_1_0_n_n_0_1_1128 xw
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src))) bitsLt_bf16_f32)
      (broadcastInDim S1700000x128 ![0, 1] bcast_S1700000x1_S1700000x128_0_1 (broadcastInDim S1700000x1 ![0] bcast_S1700000_S1700000x1_0 nrm)))

variable (a0 : FVec Ideal S100000x256 .f32) (a1 : IVec S2x1600000 32) (a2 : FVec Ideal S1600000x8 .f32)
  (a3 : FVec Ideal S128x256 .f32) (a4 : FVec Ideal S128 .f32) (a5 : FVec Ideal S128x128 .f32) (a6 : FVec Ideal S128 .f32)
  (a7 : FVec Ideal S128x128 .f32) (a8 : FVec Ideal S128 .f32) (a9 : FVec Ideal S128x128 .f32) (a10 : FVec Ideal S128 .f32)

/-- The rectified input layer. -/
def hidden : FVec Ideal S100000x128 .f32 := Cert.Dense.layer256 id Cert.Dense.relu a0 a3 (row a4) zeroRow256
/-- The first projection. -/
def projected1 : FVec Ideal S100000x128 .bf16 := Cert.Dense.layer128 id id (hidden a0 a3 a4) a5 zeroRow128 zeroRow128
/-- The first aggregate (its bias and rectifier are the next layer's). -/
def aggregated1 : FVec Ideal S100000x128 .f32 := aggregate (projected1 a0 a3 a4 a5) (sources a1) (targets a1) (weights a1 a2)
/-- The second projection, of the rectified biased aggregate. -/
def projected2 : FVec Ideal S100000x128 .bf16 :=
  Cert.Dense.layer128 Cert.Dense.relu id (aggregated1 a0 a1 a2 a3 a4 a5) a7 zeroRow128 (row a6)
/-- The second aggregate (its bias is the output layer's). -/
def aggregated2 : FVec Ideal S100000x128 .f32 :=
  aggregate (projected2 a0 a1 a2 a3 a4 a5 a6 a7) (sources a1) (targets a1) (weights a1 a2)
/-- The network's result. -/
def result : FVec Ideal S100000x128 .f32 :=
  Cert.Dense.layer128 id id (aggregated2 a0 a1 a2 a3 a4 a5 a6 a7) a9 (row a10) (row a8)

end Cert.Network

end
-- ==== Proof.LibJoinTwo.lean ====
/-
  Two arrays joined along an axis, as a function of the two arrays.

  `concatenate` takes its operands as a LIST of arrays with their shapes, and its side condition
  speaks of that list, so a rewriting pass may not touch the list without touching the side
  condition. For exactly two operands the same array is `joined t s₁ s₂ a h x y`, whose side
  condition `h` speaks of the two SHAPES only and whose operands `x`, `y` are ordinary arguments: a
  rewriting pass goes on into them. `joined_def` folds the one spelling into the other, by
  definition.
-/
import Idealize.ShloMosaic.PureOps.ShapeOps

noncomputable section

namespace Idealize.ShloMosaic

/-- Arrays `x` (shape `s₁`) and `y` (shape `s₂`) joined along axis `a` into shape `t`. -/
def joined {α : Type} (t s₁ s₂ : Shape) (a : Fin t.rank) (h : Shape.Concatenates [s₁, s₂] t a)
    (x : s₁.Idx → α) (y : s₂.Idx → α) : t.Idx → α :=
  concatenate t a [⟨s₁, x⟩, ⟨s₂, y⟩] h

/-- A `concatenate` of two operands is their join. -/
theorem joined_def {α : Type} (t s₁ s₂ : Shape) (a : Fin t.rank) (h : Shape.Concatenates [s₁, s₂] t a)
    (x : s₁.Idx → α) (y : s₂.Idx → α) :
    concatenate t a [⟨s₁, x⟩, ⟨s₂, y⟩] h = joined t s₁ s₂ a h x y := rfl

end Idealize.ShloMosaic

end
-- ==== Proof.TailRead.lean ====
/-
  The tiled program from its first layer on, read over arbitrary entry contents.

  From the first tiled layer to the return the program is: the rectified input layer, the first
  projection, a message passing, the second projection, a message passing, the output projection,
  with the zero rows and the bias rows built on the way. Each tiled layer acts on the buffers as one
  whole-array operation, so this part of the program is a straight line of whole-array operations;
  read from ANY contents `G` at the first layer's entry, the result buffer ends holding the network
  function of `G`'s node features, weights, bias vectors, edge lists and edge weights. What `G` holds
  at those buffers — the part of the program before the first layer — is read separately.
-/
import proofs.«157222_j61091614818664_2_alg».proof.Proof.Gen.KernelIdeal.Frame
import proofs.«157222_j61091614818664_2_alg».proof.Proof.LayerOps
import proofs.«157222_j61091614818664_2_alg».proof.Proof.Network
import proofs.«157222_j61091614818664_2_alg».proof.Proof.LibJoinTwo

set_option maxRecDepth 16384
noncomputable section
namespace Cert.KernelIdeal.Whole
open Idealize.ShloMosaic Idealize.ShloMosaic.TcCoe Idealize.SL.Sem Idealize.ShloMosaic.StableHlo Cert.KernelIdeal Cert.KernelIdeal.Gen

/-- The network function with the edge lists, the edge weights and the input layer's two rows as parameters. -/
def resultWith (src dst : IVec S1700000 32) (nrm : FVec Ideal S1700000 .f32)
    (a0 : FVec Ideal S100000x256 .f32) (a3 : FVec Ideal S128x256 .f32) (r4 : FVec Ideal S1x128 .f32) (z0 : FVec Ideal S1x256 .f32)
    (a5 : FVec Ideal S128x128 .f32) (a6 : FVec Ideal S128 .f32) (a7 : FVec Ideal S128x128 .f32) (a8 : FVec Ideal S128 .f32)
    (a9 : FVec Ideal S128x128 .f32) (a10 : FVec Ideal S128 .f32) : FVec Ideal S100000x128 .f32 :=
  Cert.Dense.layer128 id id
    (Cert.Network.aggregate
      (Cert.Dense.layer128 Cert.Dense.relu id
        (Cert.Network.aggregate
          (Cert.Dense.layer128 id id (Cert.Dense.layer256 id Cert.Dense.relu a0 a3 r4 z0) a5 Cert.Network.zeroRow128 Cert.Network.zeroRow128)
          src dst nrm)
        a7 Cert.Network.zeroRow128 (Cert.Network.row a6))
      src dst nrm)
    a9 (Cert.Network.row a10) (Cert.Network.row a8)

set_option maxHeartbeats 64800000 in
/-- From ANY contents `G` at the first layer's entry: the four layers and the three stretches between them, read
    as a straight line, leave the network function of `G`'s buffers in the result buffer. -/
theorem tail_read (G : Valuation τ sig (Elt Ideal)) :
    Layers.layerOp3.result (after hostOps3 (Layers.layerOp2.result (after hostOps2 (Layers.layerOp1.result (after hostOps1
      (Layers.layerOp0.result G)))))) (Proc.devRef .tc main_v83)
    = resultWith (G (Proc.devRef .tc main_v10)) (G (Proc.devRef .tc main_v11)) (G (Proc.devRef .tc main_v39))
        (G (Proc.devRef .tc main_arg0)) (G (Proc.devRef .tc main_arg3)) (G (Proc.devRef .tc main_v41)) (G (Proc.devRef .tc main_v42))
        (G (Proc.devRef .tc main_arg5)) (G (Proc.devRef .tc main_arg6)) (G (Proc.devRef .tc main_arg7)) (G (Proc.devRef .tc main_arg8))
        (G (Proc.devRef .tc main_arg9)) (G (Proc.devRef .tc main_arg10)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', joined_def]
  rfl

end Cert.KernelIdeal.Whole
end
-- ==== Proof.HeadReads.lean ====
/-
  What the first tiled layer finds in the buffers it and the later stages read.

  Before the first layer the program computes, by whole-array operations on the edge arrays alone, the edge
  lists with the self-loops appended, the symmetric normalization of every edge, and the two rows the first
  layer takes. Each of those buffers, read at the first layer's entry, is the corresponding function of the
  launch contents; the argument arrays themselves are untouched.
-/
import proofs.«157222_j61091614818664_2_alg».proof.Proof.Gen.KernelIdeal.Frame
import proofs.«157222_j61091614818664_2_alg».proof.Proof.Network
import proofs.«157222_j61091614818664_2_alg».proof.Proof.LibJoinTwo

set_option maxRecDepth 16384

noncomputable section

namespace Cert.KernelIdeal.Whole

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

/-- One pass that replaces every whole-array operation's result buffer by the operation applied to its operands'
    contents, down to the launch contents; a transport of contents along a type equation between equal types is
    dropped on the way. -/
local macro "read_ops" : tactic =>
  `(tactic| simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', joined_def, cast_eq])

/-- The source node of every edge with the self-loops appended, as the first layer finds it. -/
theorem head_sources (c : Dev nD) : W7 m ρ c (Proc.devRef .tc main_v10) = Cert.Network.sources (m ((c.tc : Thread nD τ).loc main_arg1)) := by
  read_ops; rfl

/-- The destination node of every edge with the self-loops appended, as the first layer finds it. -/
theorem head_targets (c : Dev nD) : W7 m ρ c (Proc.devRef .tc main_v11) = Cert.Network.targets (m ((c.tc : Thread nD τ).loc main_arg1)) := by
  read_ops; rfl

/-- The first layer's bias, kept as a row. -/
theorem head_row4 (c : Dev nD) : W7 m ρ c (Proc.devRef .tc main_v41) = Cert.Network.row (m ((c.tc : Thread nD τ).loc main_arg4)) := by
  read_ops; rfl

/-- The row added to the nodes before the first product is zero. -/
theorem head_zero256 (c : Dev nD) : W7 m ρ c (Proc.devRef .tc main_v42) = Cert.Network.zeroRow256 := by
  read_ops; rfl

/-- No whole-array operation before the first layer writes an argument array. -/
theorem head_arg0 (c : Dev nD) : W7 m ρ c (Proc.devRef .tc main_arg0) = m ((c.tc : Thread nD τ).loc main_arg0) := by
  read_ops <;> rfl
theorem head_arg3 (c : Dev nD) : W7 m ρ c (Proc.devRef .tc main_arg3) = m ((c.tc : Thread nD τ).loc main_arg3) := by
  read_ops <;> rfl
theorem head_arg5 (c : Dev nD) : W7 m ρ c (Proc.devRef .tc main_arg5) = m ((c.tc : Thread nD τ).loc main_arg5) := by
  read_ops <;> rfl
theorem head_arg6 (c : Dev nD) : W7 m ρ c (Proc.devRef .tc main_arg6) = m ((c.tc : Thread nD τ).loc main_arg6) := by
  read_ops <;> rfl
theorem head_arg7 (c : Dev nD) : W7 m ρ c (Proc.devRef .tc main_arg7) = m ((c.tc : Thread nD τ).loc main_arg7) := by
  read_ops <;> rfl
theorem head_arg8 (c : Dev nD) : W7 m ρ c (Proc.devRef .tc main_arg8) = m ((c.tc : Thread nD τ).loc main_arg8) := by
  read_ops <;> rfl
theorem head_arg9 (c : Dev nD) : W7 m ρ c (Proc.devRef .tc main_arg9) = m ((c.tc : Thread nD τ).loc main_arg9) := by
  read_ops <;> rfl
theorem head_arg10 (c : Dev nD) : W7 m ρ c (Proc.devRef .tc main_arg10) = m ((c.tc : Thread nD τ).loc main_arg10) := by
  read_ops <;> rfl

set_option maxHeartbeats 64800000 in
/-- The symmetric normalization of every edge, as the first layer finds it: the degrees by a sum over the
    destinations, their guarded inverse square roots gathered at both ends of every edge, times the edge's
    normalized weight — the same operations, in the same order, as the reference's. -/
theorem head_weights (c : Dev nD) : W7 m ρ c (Proc.devRef .tc main_v39) = Cert.Network.weights (m ((c.tc : Thread nD τ).loc main_arg1)) (m ((c.tc : Thread nD τ).loc main_arg2)) := by
  read_ops; rfl

end Cert.KernelIdeal.Whole

end
-- ==== Proof.WholeRun.lean ====
/-
  The tiled program's result buffer, read through the whole program.

  Between the launch and the return the program is: seven stretches of whole-array operations on
  the edges (the edge weights and their normalization, the edge lists with the self-loops appended,
  the degrees, the symmetric normalization) and on the first layer's two rows; then the rectified
  input layer, the first projection, a message passing, the second projection, a message passing and
  the output projection. Each tiled layer acts on the buffer contents as one whole-array operation
  (the exit lemmas, with the statements about the tiles), so from the first layer on the program is
  a straight line of whole-array operations over the contents at the first layer's entry (the tail
  reading); and those contents hold, at the buffers that line reads, the edge lists, the edge
  weights, the two rows and the untouched arguments (the head readings). Together: at the last
  segment boundary the result buffer holds the network function of the eleven argument arrays.
-/
import proofs.«157222_j61091614818664_2_alg».proof.Proof.Gen.KernelIdeal.Frame
import proofs.«157222_j61091614818664_2_alg».proof.Proof.LayerOps
import proofs.«157222_j61091614818664_2_alg».proof.Proof.LayerExits
import proofs.«157222_j61091614818664_2_alg».proof.Proof.Tile0
import proofs.«157222_j61091614818664_2_alg».proof.Proof.Tile1
import proofs.«157222_j61091614818664_2_alg».proof.Proof.Tile2
import proofs.«157222_j61091614818664_2_alg».proof.Proof.Tile3
import proofs.«157222_j61091614818664_2_alg».proof.Proof.Network
import proofs.«157222_j61091614818664_2_alg».proof.Proof.TailRead
import proofs.«157222_j61091614818664_2_alg».proof.Proof.HeadReads

set_option maxRecDepth 16384

noncomputable section

namespace Cert.KernelIdeal.Whole

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

-- looking up the types of the later buffers in the program's table of buffers takes many small steps
set_option maxHeartbeats 4000000 in
/-- At the last segment boundary the result buffer holds the network function of the argument arrays as
    launched: the four layers' exits, the tail reading over the first layer's entry contents, and what
    those contents hold. -/
theorem result_at (c : Dev nD) :
    W14 m ρ c (Proc.devRef .tc main_v83)
      = Cert.Network.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Layers.exit3 m ρ Tiles.array3 c]
  dsimp only [W13]
  rw [Layers.exit2 m ρ Tiles.array2 c]
  dsimp only [W11]
  rw [Layers.exit1 m ρ Tiles.array1 c]
  dsimp only [W9]
  rw [Layers.exit0 m ρ Tiles.array0 c]
  rw [tail_read (W7 m ρ c), head_sources m ρ c, head_targets m ρ c, head_weights m ρ c, head_row4 m ρ c, head_zero256 m ρ c,
    head_arg0 m ρ c, head_arg3 m ρ c, head_arg5 m ρ c, head_arg6 m ρ c, head_arg7 m ρ c, head_arg8 m ρ c, head_arg9 m ρ c, head_arg10 m ρ c]
  rfl

end Cert.KernelIdeal.Whole

end
-- ==== Proof.RefLayers.lean ====
/-
  The reference program's four dense layers on the extended reals, as dense-layer functions.

  The reference computes a layer on whole arrays: the node matrix times the TRANSPOSE of the weight
  matrix (a sum over the shared feature axis), a bias vector repeated down all 100000 rows and added,
  and a rectifier taken as the entrywise maximum with an array of zeros. Read in row r and column c
  these are  Σ_k X[r,k] · W[c,k],  + bias[c]  and  max · 0,  which is the dense layer's entry. A bias
  row b and a row p added before the product enter only through what they hold in row 0; where they
  hold 0 the sum x + 0 = x and 0 + y = y drops them, with no finiteness needed on the extended reals.
-/
import proofs.«157222_j61091614818664_2_alg».proof.Proof.Gen.ReferenceIdeal
import proofs.«157222_j61091614818664_2_alg».proof.Proof.Dense
import Idealize.ShloMosaic.Lib.ValueIdx
import Idealize.ShloMosaic.Lib.Pipeline.Value
import Idealize.ShloMosaic.PureOps.Ideal.Laws

noncomputable section
namespace Cert.ReferenceIdeal.Layers
open Idealize.ShloMosaic Idealize.ShloMosaic.ValueIdx Cert.ReferenceIdeal Cert.ReferenceIdeal.Gen

/-- Left operand's row coordinate under the product's index map: the result's row. -/
theorem lhs256_0 (i : S100000x128.Idx) (q : dot_S100000x256_S256x128_S100000x128_1_0_0_1_n_n.contr.Idx) :
    (dot_S100000x256_S256x128_S100000x128_1_0_0_1_n_n.lhsIdx i q 0).val = (i 0).val := by
  unfold DotDims.lhsIdx
  rw [dif_neg (show ¬(0 : Fin S100000x256.rank) ∈ dot_S100000x256_S256x128_S100000x128_1_0_0_1_n_n.lhsBatch by decide), dif_pos (show (0 : Fin S100000x256.rank) ∈ dot_S100000x256_S256x128_S100000x128_1_0_0_1_n_n.lhsNonContracting by decide)]
  rfl

/-- Left operand's column coordinate: the summation index. -/
theorem lhs256_1 (i : S100000x128.Idx) (q : dot_S100000x256_S256x128_S100000x128_1_0_0_1_n_n.contr.Idx) :
    (dot_S100000x256_S256x128_S100000x128_1_0_0_1_n_n.lhsIdx i q 1).val = (q ⟨0, by decide⟩).val :=
  dot_S100000x256_S256x128_S100000x128_1_0_0_1_n_n.lhsIdx_val_of_single rfl i q

/-- Right operand's row coordinate: the summation index. -/
theorem rhs256_0 (i : S100000x128.Idx) (q : dot_S100000x256_S256x128_S100000x128_1_0_0_1_n_n.contr.Idx) :
    (dot_S100000x256_S256x128_S100000x128_1_0_0_1_n_n.rhsIdx i q 0).val = (q ⟨0, by decide⟩).val :=
  dot_S100000x256_S256x128_S100000x128_1_0_0_1_n_n.rhsIdx_val_of_single rfl i q

/-- Right operand's column coordinate: the result's column. -/
theorem rhs256_1 (i : S100000x128.Idx) (q : dot_S100000x256_S256x128_S100000x128_1_0_0_1_n_n.contr.Idx) :
    (dot_S100000x256_S256x128_S100000x128_1_0_0_1_n_n.rhsIdx i q 1).val = (i 1).val := by
  unfold DotDims.rhsIdx
  rw [dif_neg (show ¬(1 : Fin S256x128.rank) ∈ dot_S100000x256_S256x128_S100000x128_1_0_0_1_n_n.rhsBatch by decide), dif_pos (show (1 : Fin S256x128.rank) ∈ dot_S100000x256_S256x128_S100000x128_1_0_0_1_n_n.rhsNonContracting by decide)]
  rfl

/-- The product of a node matrix `x` with the transpose of a weight matrix `w` over 256 input features,
    read in row `r` and column `c`: the sum over `k` of `x[r,k] · w[c,k]`. The product sums, over its
    one contracted axis, the left operand at `(r,k)` times the right at `(k,c)`, and the transpose at
    `(k,c)` is `w` at `(c,k)`. -/
theorem dot_transpose256 (x : FVec Ideal S100000x256 .f32) (w : FVec Ideal S128x256 .f32) (r : Fin 100000) (c : Fin 128) :
    Host.dotGeneral (F := Ideal) dot_S100000x256_S256x128_S100000x128_1_0_0_1_n_n none x (transpose S256x128 [1, 0] w transposes_S128x256_S256x128_1_0) (ix2 r c)
      = ∑ k : Fin 256, x (ix2 r k) * w (ix2 c k) := by
  have ht : ∀ k : Fin 256, transpose S256x128 [1, 0] w transposes_S128x256_S256x128_1_0 (ix2 k c) = w (ix2 c k) := fun k =>
    transpose_apply [1, 0] w transposes_S128x256_S256x128_1_0 (ix2 k c) (ix2 c k) (fun b => match b with
      | ⟨0, _⟩ => rfl
      | ⟨1, _⟩ => rfl)
  generalize transpose S256x128 [1, 0] w transposes_S128x256_S256x128_1_0 = y at ht ⊢
  simp only [Host.dotGeneral]
  rw [Ideal.dotGeneral_apply, ← Equiv.sum_comp (ValueIdx.contrEquiv1 dot_S100000x256_S256x128_S100000x128_1_0_0_1_n_n 256 rfl rfl).symm]
  refine Finset.sum_congr rfl fun k _ => ?_
  have hk := ValueIdx.contrEquiv1_symm_val dot_S100000x256_S256x128_S100000x128_1_0_0_1_n_n 256 rfl rfl k
  have el : dot_S100000x256_S256x128_S100000x128_1_0_0_1_n_n.lhsIdx (ix2 r c) ((ValueIdx.contrEquiv1 dot_S100000x256_S256x128_S100000x128_1_0_0_1_n_n 256 rfl rfl).symm k) = ix2 r k := funext fun a => Fin.ext (by
    match a with
    | ⟨0, _⟩ => exact lhs256_0 _ _
    | ⟨1, _⟩ => exact (lhs256_1 _ _).trans hk)
  have er : dot_S100000x256_S256x128_S100000x128_1_0_0_1_n_n.rhsIdx (ix2 r c) ((ValueIdx.contrEquiv1 dot_S100000x256_S256x128_S100000x128_1_0_0_1_n_n 256 rfl rfl).symm k) = ix2 k c := funext fun a => Fin.ext (by
    match a with
    | ⟨0, _⟩ => exact (rhs256_0 _ _).trans hk
    | ⟨1, _⟩ => exact rhs256_1 _ _)
  rw [el, er, ht k]

/-- Left operand's row coordinate under the product's index map: the result's row. -/
theorem lhs128_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl

/-- Left operand's column coordinate: the summation index. -/
theorem lhs128_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q

/-- Right operand's row coordinate: the summation index. -/
theorem rhs128_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q

/-- Right operand's column coordinate: the result's column. -/
theorem rhs128_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The product of a node matrix `x` with the transpose of a weight matrix `w` over 128 input features,
    read in row `r` and column `c`: the sum over `k` of `x[r,k] · w[c,k]`. The product sums, over its
    one contracted axis, the left operand at `(r,k)` times the right at `(k,c)`, and the transpose at
    `(k,c)` is `w` at `(c,k)`. -/
theorem dot_transpose128 (x : FVec Ideal S100000x128 .f32) (w : FVec Ideal S128x128 .f32) (r : Fin 100000) (c : Fin 128) :
    Host.dotGeneral (F := Ideal) dot_S100000x128_S128x128_S100000x128_1_0_0_1_n_n none x (transpose S128x128 [1, 0] w transposes_S128x128_S128x128_1_0) (ix2 r c)
      = ∑ k : Fin 128, x (ix2 r k) * w (ix2 c k) := by
  have ht : ∀ k : Fin 128, transpose S128x128 [1, 0] w transposes_S128x128_S128x128_1_0 (ix2 k c) = w (ix2 c k) := fun k =>
    transpose_apply [1, 0] w transposes_S128x128_S128x128_1_0 (ix2 k c) (ix2 c k) (fun b => match b with
      | ⟨0, _⟩ => rfl
      | ⟨1, _⟩ => rfl)
  generalize transpose S128x128 [1, 0] w transposes_S128x128_S128x128_1_0 = y at ht ⊢
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r c) ((ValueIdx.contrEquiv1 dot_S100000x128_S128x128_S100000x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S100000x128_S128x128_S100000x128_1_0_0_1_n_n.rhsIdx (ix2 r c) ((ValueIdx.contrEquiv1 dot_S100000x128_S128x128_S100000x128_1_0_0_1_n_n 128 rfl rfl).symm k) = ix2 k c := funext fun a => Fin.ext (by
    match a with
    | ⟨0, _⟩ => exact (rhs128_0 _ _).trans hk
    | ⟨1, _⟩ => exact rhs128_1 _ _)
  rw [el, er, ht k]

/-- A vector of 128 entries made a 1 × 128 row and then repeated down 100000 rows, read in row `r`
    and column `c`, is the vector's entry `c`: each repetition keeps the column and forgets the row. -/
theorem bias_apply (v : FVec Ideal S128 .f32) (r : Fin 100000) (c : Fin 128) :
    broadcastInDim S100000x128 ![0, 1] bcast_S1x128_S100000x128_0_1 (broadcastInDim S1x128 ![1] bcast_S128_S1x128_1 v) (ix2 r c) = v (ix1 c) := by
  rw [broadcastInDim_apply _ bcast_S1x128_S100000x128_0_1 _ (ix2 r c) (ix2 (0 : Fin 1) c) (fun a => match a with
    | ⟨0, _⟩ => by show 0 = if (1 : Nat) = 1 then 0 else r.val; rw [if_pos rfl]
    | ⟨1, _⟩ => by show c.val = if (128 : Nat) = 1 then 0 else c.val; rw [if_neg (by decide)])]
  exact broadcastInDim_apply _ bcast_S128_S1x128_1 v (ix2 (0 : Fin 1) c) (ix1 c) (fun a => match a with
    | ⟨0, _⟩ => by show c.val = if (128 : Nat) = 1 then 0 else c.val; rw [if_neg (by decide)])

/-- The scalar zero repeated over the whole 100000 × 128 array is the extended real `0` everywhere. -/
theorem zero_apply (i : S100000x128.Idx) :
    broadcastInDim S100000x128 ![] bcast_S_S100000x128 (constant (F := Ideal) S_ .f32 0x00000000#32) i = 0 := by
  rw [broadcastInDim_apply _ bcast_S_S100000x128 _ i (fun a => a.elim0) (fun a => a.elim0)]
  exact Ideal.ofBits_zero_f32

/-- The input layer: 256 input features, nothing added before the product (`p` holds `0`), the
    bias `x4` after it, then the rectifier. Entry `(r,c)` is `max (Σ_k x0[r,k] · x3[c,k] + x4[c]) 0`. -/
theorem input_layer (x0 : FVec Ideal S100000x256 .f32) (x3 : FVec Ideal S128x256 .f32) (x4 : FVec Ideal S128 .f32)
    (b : (⟨2, ![1, 128]⟩ : Shape).Idx → EReal) (p : (⟨2, ![1, 256]⟩ : Shape).Idx → EReal)
    (hb : ∀ c : Fin 128, b (ix2 (0 : Fin 1) c) = x4 (ix1 c)) (hp : ∀ k : Fin 256, p (ix2 (0 : Fin 1) k) = 0) :
    Cert.Dense.layer256 id Cert.Dense.relu x0 x3 b p
      = maximumf (addf (Host.dotGeneral (F := Ideal) dot_S100000x256_S256x128_S100000x128_1_0_0_1_n_n none x0 (transpose S256x128 [1, 0] x3 transposes_S128x256_S256x128_1_0))
          (broadcastInDim S100000x128 ![0, 1] bcast_S1x128_S100000x128_0_1 (broadcastInDim S1x128 ![1] bcast_S128_S1x128_1 x4)))
        (broadcastInDim S100000x128 ![] bcast_S_S100000x128 (constant (F := Ideal) S_ .f32 0x00000000#32)) := by
  funext i
  obtain ⟨r, c, rfl⟩ : ∃ (r : Fin 100000) (c : Fin 128), i = ix2 r c := ⟨i 0, i 1, eq_ix2 i⟩
  rw [Cert.Dense.layer256_apply, maximumf_apply, addf_apply, dot_transpose256, bias_apply, zero_apply]
  unfold Cert.Dense.entry256 Cert.Dense.relu
  rw [hb c]
  refine congrArg (fun s => max (s + x4 (ix1 c)) 0) (Finset.sum_congr rfl fun k _ => ?_)
  rw [hp k, add_zero, id]

/-- A layer with neither bias nor rectifier: both rows hold `0`, and entry `(r,c)` is
    `Σ_k h[r,k] · x5[c,k]`. -/
theorem plain_layer (h : FVec Ideal S100000x128 .f32) (x5 : FVec Ideal S128x128 .f32)
    (b p : (⟨2, ![1, 128]⟩ : Shape).Idx → EReal)
    (hb : ∀ c : Fin 128, b (ix2 (0 : Fin 1) c) = 0) (hp : ∀ k : Fin 128, p (ix2 (0 : Fin 1) k) = 0) :
    Cert.Dense.layer128 id id h x5 b p
      = Host.dotGeneral (F := Ideal) dot_S100000x128_S128x128_S100000x128_1_0_0_1_n_n none h (transpose S128x128 [1, 0] x5 transposes_S128x128_S128x128_1_0) := by
  funext i
  obtain ⟨r, c, rfl⟩ : ∃ (r : Fin 100000) (c : Fin 128), i = ix2 r c := ⟨i 0, i 1, eq_ix2 i⟩
  rw [Cert.Dense.layer128_apply, dot_transpose128]
  unfold Cert.Dense.entry128
  rw [hb c, add_zero, id]
  refine Finset.sum_congr rfl fun k _ => ?_
  rw [hp k, add_zero, id]

/-- A layer whose input is first shifted by the vector `x6` and rectified: the row `p` holds `x6`,
    there is no bias after the product, and entry `(r,c)` is `Σ_k max (a[r,k] + x6[k]) 0 · x7[c,k]`. -/
theorem rectified_layer (a : FVec Ideal S100000x128 .f32) (x7 : FVec Ideal S128x128 .f32) (x6 : FVec Ideal S128 .f32)
    (b p : (⟨2, ![1, 128]⟩ : Shape).Idx → EReal)
    (hb : ∀ c : Fin 128, b (ix2 (0 : Fin 1) c) = 0) (hp : ∀ k : Fin 128, p (ix2 (0 : Fin 1) k) = x6 (ix1 k)) :
    Cert.Dense.layer128 Cert.Dense.relu id a x7 b p
      = Host.dotGeneral (F := Ideal) dot_S100000x128_S128x128_S100000x128_1_0_0_1_n_n none
          (maximumf (addf a (broadcastInDim S100000x128 ![0, 1] bcast_S1x128_S100000x128_0_1 (broadcastInDim S1x128 ![1] bcast_S128_S1x128_1 x6)))
            (broadcastInDim S100000x128 ![] bcast_S_S100000x128 (constant (F := Ideal) S_ .f32 0x00000000#32)))
          (transpose S128x128 [1, 0] x7 transposes_S128x128_S128x128_1_0) := by
  funext i
  obtain ⟨r, c, rfl⟩ : ∃ (r : Fin 100000) (c : Fin 128), i = ix2 r c := ⟨i 0, i 1, eq_ix2 i⟩
  rw [Cert.Dense.layer128_apply, dot_transpose128]
  unfold Cert.Dense.entry128 Cert.Dense.relu
  rw [hb c, add_zero, id]
  refine Finset.sum_congr rfl fun k _ => ?_
  rw [maximumf_apply, addf_apply, bias_apply, zero_apply, hp k]

/-- The output layer: the input shifted by the vector `x8` (the row `p`), no rectifier, and the bias
    `x10` after the product. Entry `(r,c)` is `Σ_k (a[r,k] + x8[k]) · x9[c,k] + x10[c]`. -/
theorem output_layer (a : FVec Ideal S100000x128 .f32) (x9 : FVec Ideal S128x128 .f32) (x8 x10 : FVec Ideal S128 .f32)
    (b p : (⟨2, ![1, 128]⟩ : Shape).Idx → EReal)
    (hb : ∀ c : Fin 128, b (ix2 (0 : Fin 1) c) = x10 (ix1 c)) (hp : ∀ k : Fin 128, p (ix2 (0 : Fin 1) k) = x8 (ix1 k)) :
    Cert.Dense.layer128 id id a x9 b p
      = addf (Host.dotGeneral (F := Ideal) dot_S100000x128_S128x128_S100000x128_1_0_0_1_n_n none
          (addf a (broadcastInDim S100000x128 ![0, 1] bcast_S1x128_S100000x128_0_1 (broadcastInDim S1x128 ![1] bcast_S128_S1x128_1 x8)))
          (transpose S128x128 [1, 0] x9 transposes_S128x128_S128x128_1_0))
        (broadcastInDim S100000x128 ![0, 1] bcast_S1x128_S100000x128_0_1 (broadcastInDim S1x128 ![1] bcast_S128_S1x128_1 x10)) := by
  funext i
  obtain ⟨r, c, rfl⟩ : ∃ (r : Fin 100000) (c : Fin 128), i = ix2 r c := ⟨i 0, i 1, eq_ix2 i⟩
  rw [Cert.Dense.layer128_apply, addf_apply, dot_transpose128, bias_apply]
  unfold Cert.Dense.entry128
  rw [hb c, id]
  refine congrArg (· + x10 (ix1 c)) (Finset.sum_congr rfl fun k _ => ?_)
  rw [addf_apply, bias_apply, hp k, id]

end Cert.ReferenceIdeal.Layers
end
-- ==== Proof.Rows.lean ====
/-
  Rows of the kernel program's dense layers on the extended reals.

  A vector of 128 (or 256) entries kept as a matrix with ONE row holds, in row 0 and column c,
  the vector's entry c: the two arrangements list the same entries in the same order. The rows
  the program builds from the scalar zero hold the extended real 0 in every column.
-/
import proofs.«157222_j61091614818664_2_alg».proof.Proof.Gen.KernelIdeal
import Idealize.ShloMosaic.Lib.ValueIdx
import Idealize.ShloMosaic.Lib.Pipeline.Value
import Idealize.ShloMosaic.PureOps.Ideal.Laws

noncomputable section
namespace Cert.KernelIdeal.Rows
open Idealize.ShloMosaic Idealize.ShloMosaic.ValueIdx Cert.KernelIdeal Cert.KernelIdeal.Gen

/-- A vector of 128 entries rearranged as a 1 × 128 matrix, read in row 0 and column `c`, is the
    vector's entry `c`: both sit at position `c` of the row-by-row listing. -/
theorem row_apply (v : FVec Ideal S128 .f32) (c : Fin 128) :
    shapeCast S1x128 v shapeCasts_S128_S1x128 (ix2 (0 : Fin 1) c) = v (ix1 c) :=
  shapeCast_apply v shapeCasts_S128_S1x128 (ix2 (0 : Fin 1) c) (ix1 c)
    (by rewrite [Shape.rowMajor_val_two, Shape.rowMajor_val_one]
        show c.val = 0 * 128 + c.val
        omega)

/-- The scalar zero spread over 128 entries and kept as a 1 × 128 row is the extended real `0` in
    every column: the row's entry is the spread vector's, which is the scalar, whose value is `0`. -/
theorem zero_row128 (k : Fin 128) :
    shapeCast S1x128 (broadcastInDim S128 ![] bcast_S_S128 (constant (F := Ideal) S_ .f32 0x00000000#32)) shapeCasts_S128_S1x128 (ix2 (0 : Fin 1) k) = 0 := by
  rw [shapeCast_apply _ shapeCasts_S128_S1x128 (ix2 (0 : Fin 1) k) (ix1 k)
    (by rewrite [Shape.rowMajor_val_two, Shape.rowMajor_val_one]
        show k.val = 0 * 128 + k.val
        omega)]
  rw [broadcastInDim_apply _ bcast_S_S128 _ (ix1 k) (fun a => a.elim0) (fun a => a.elim0)]
  exact Ideal.ofBits_zero_f32

/-- The same over 256 entries. -/
theorem zero_row256 (k : Fin 256) :
    shapeCast S1x256 (broadcastInDim S256 ![] bcast_S_S256 (constant (F := Ideal) S_ .f32 0x00000000#32)) shapeCasts_S256_S1x256 (ix2 (0 : Fin 1) k) = 0 := by
  rw [shapeCast_apply _ shapeCasts_S256_S1x256 (ix2 (0 : Fin 1) k) (ix1 k)
    (by rewrite [Shape.rowMajor_val_two, Shape.rowMajor_val_one]
        show k.val = 0 * 256 + k.val
        omega)]
  rw [broadcastInDim_apply _ bcast_S_S256 _ (ix1 k) (fun a => a.elim0) (fun a => a.elim0)]
  exact Ideal.ofBits_zero_f32

end Cert.KernelIdeal.Rows
end
-- ==== Proof.Bridge.lean ====
/-
  The network function of the tiled program IS the reference's last stage, on the extended reals.

  Stage by stage the two are the same whole-array operations. Each dense layer of the network
  function is the reference's transpose, product, repeated bias and entrywise maximum with zero
  (the four dense-layer theorems, with the bias rows read in row 0). The message passing is,
  operation for operation, the same gather of source rows, scaling by the repeated edge
  normalization and summation into the destination rows; widening a 16-bit value to 32 bits is the
  identity on the extended reals, and the reference's second computation of the edge lists and of
  the normalization repeats its first, operation for operation, from the same edge arrays.
-/
import proofs.«157222_j61091614818664_2_alg».proof.Proof.Network
import proofs.«157222_j61091614818664_2_alg».proof.Proof.RefLayers
import proofs.«157222_j61091614818664_2_alg».proof.Proof.Rows

noncomputable section
namespace Cert.Network
open Idealize.ShloMosaic Cert.KernelIdeal Cert.KernelIdeal.Gen

section Stages
open Cert.ReferenceIdeal.Read Cert.ReferenceIdeal.Layers Cert.KernelIdeal.Rows

variable (a0 : FVec Ideal S100000x256 .f32) (a1 : IVec S2x1600000 32) (a2 : FVec Ideal S1600000x8 .f32)
  (a3 : FVec Ideal S128x256 .f32) (a4 : FVec Ideal S128 .f32) (a5 : FVec Ideal S128x128 .f32) (a6 : FVec Ideal S128 .f32)
  (a7 : FVec Ideal S128x128 .f32) (a8 : FVec Ideal S128 .f32) (a9 : FVec Ideal S128x128 .f32) (a10 : FVec Ideal S128 .f32)

/-- The reference's second list of source nodes is its first: the same slice of the edge array
    joined with the same list of self-loops. -/
theorem sources_again : val_main_v66 (F := Ideal) a1 = sources a1 := rfl

/-- Likewise the destination nodes. -/
theorem targets_again : val_main_v67 (F := Ideal) a1 = targets a1 := rfl

/-- Likewise the edge normalization: the same degree sums, inverse square roots and products. -/
theorem weights_again : val_main_v95 (F := Ideal) a1 a2 = weights a1 a2 := rfl

/-- The rectified input layer is the reference's: product with the transposed weights, the bias `a4`
    repeated down the rows, maximum with zero. -/
theorem hidden_eq : hidden a0 a3 a4 = val_main_v14 (F := Ideal) a0 a3 a4 :=
  (input_layer a0 a3 a4 (row a4) zeroRow256 (row_apply a4) zero_row256).trans rfl

/-- The first projection is the reference's product with the transposed `a5`. -/
theorem projected1_eq : projected1 a0 a3 a4 a5 = val_main_v47 (F := Ideal) a0 a3 a4 a5 := by
  unfold projected1
  rw [hidden_eq]
  exact (plain_layer _ a5 zeroRow128 zeroRow128 zero_row128 zero_row128).trans rfl

/-- The first message passing is the reference's gather, scaling and summation of the projection. -/
theorem aggregated1_eq : aggregated1 a0 a1 a2 a3 a4 a5 = val_main_v60 (F := Ideal) a0 a1 a2 a3 a4 a5 := by
  unfold aggregated1
  rw [projected1_eq]
  rfl

/-- The second projection is the reference's: the aggregate shifted by `a6`, rectified, times the
    transposed `a7`. -/
theorem projected2_eq :
    projected2 a0 a1 a2 a3 a4 a5 a6 a7 = val_main_v97 (F := Ideal) a0 a1 a2 a3 a4 a5 a6 a7 := by
  unfold projected2
  rw [aggregated1_eq]
  exact (rectified_layer _ a7 a6 zeroRow128 (row a6) zero_row128 (row_apply a6)).trans rfl

/-- The second message passing is the reference's, whose edge lists and normalization are the
    first ones again. -/
theorem aggregated2_eq :
    aggregated2 a0 a1 a2 a3 a4 a5 a6 a7 = val_main_v110 (F := Ideal) a0 a1 a2 a3 a4 a5 a6 a7 := by
  unfold aggregated2
  rw [projected2_eq, ← sources_again, ← targets_again, ← weights_again]
  rfl

end Stages

/-- The network function equals the reference's last stage: the second aggregate shifted by `a8`,
    times the transposed `a9`, plus the bias `a10`. -/
theorem result_eq_reference (a0 : FVec Ideal S100000x256 .f32) (a1 : IVec S2x1600000 32) (a2 : FVec Ideal S1600000x8 .f32)
    (a3 : FVec Ideal S128x256 .f32) (a4 : FVec Ideal S128 .f32) (a5 : FVec Ideal S128x128 .f32) (a6 : FVec Ideal S128 .f32)
    (a7 : FVec Ideal S128x128 .f32) (a8 : FVec Ideal S128 .f32) (a9 : FVec Ideal S128x128 .f32) (a10 : FVec Ideal S128 .f32) :
    result a0 a1 a2 a3 a4 a5 a6 a7 a8 a9 a10
      = Cert.ReferenceIdeal.Read.val_main_v118 (F := Ideal) a0 a1 a2 a3 a4 a5 a6 a7 a8 a9 a10 := by
  unfold result
  rw [aggregated2_eq]
  exact (Cert.ReferenceIdeal.Layers.output_layer _ a9 a8 a10 (row a10) (row a8)
    (Cert.KernelIdeal.Rows.row_apply a10) (Cert.KernelIdeal.Rows.row_apply a8)).trans rfl

end Cert.Network
end
-- ==== Proof.lean ====
/-
  Two programs for one graph network are equal on the extended reals.

  The network: node features pass a rectified dense input layer; twice, a dense projection is
  followed by message passing along the edges (every edge — the self-loops among them — carries its
  source node's row, scaled by the edge's symmetric normalization `dinv[src] · w · dinv[dst]`, into
  its destination node), the first time followed by a bias and a rectifier, the second by a bias;
  a biased dense output layer ends it. One program computes the four dense layers tile by tile,
  4000 rows at a time, and folds each aggregate's bias (and rectifier) into the NEXT layer as a row
  added before the product; the other computes everything on whole arrays. On the extended reals
  a dense layer's entry is the same finite sum of products either way, adding the zero row changes
  nothing, and the two programs apply the same whole-array operations to the edges; so both end
  with the same array, whatever the inputs hold — the equality uses no law that needs finite entries.

  The frames of the two tiled programs and the reference's run are the generated ones. The tiled
  program's result is read in three steps: its run names the result buffer's final contents
  (KernelRun); each tiled layer acts on the buffers as one whole-array operation whose value is the
  dense layer (Tile0–Tile3, LayerOps, LayerExits), so the result is the network function of the
  arguments (WholeRun, Network); and that function is the reference's last stage (RefLayers, Rows,
  Bridge).
-/
import proofs.«157222_j61091614818664_2_alg».proof.Defs
import proofs.«157222_j61091614818664_2_alg».proof.Proof.Gen.Kernel
import proofs.«157222_j61091614818664_2_alg».proof.Proof.Gen.Kernel.Skeleton
import proofs.«157222_j61091614818664_2_alg».proof.Proof.Gen.Kernel.Launch
import proofs.«157222_j61091614818664_2_alg».proof.Proof.Gen.Kernel.Points
import proofs.«157222_j61091614818664_2_alg».proof.Proof.Gen.Kernel.Frame
import proofs.«157222_j61091614818664_2_alg».proof.Proof.Gen.KernelIdeal
import proofs.«157222_j61091614818664_2_alg».proof.Proof.Gen.KernelIdeal.Skeleton
import proofs.«157222_j61091614818664_2_alg».proof.Proof.Gen.KernelIdeal.Launch
import proofs.«157222_j61091614818664_2_alg».proof.Proof.Gen.KernelIdeal.Points
import proofs.«157222_j61091614818664_2_alg».proof.Proof.Gen.KernelIdeal.Frame
import proofs.«157222_j61091614818664_2_alg».proof.Proof.Gen.ReferenceIdeal
import proofs.«157222_j61091614818664_2_alg».proof.Proof.Gen.ReferenceIdeal.Run
import proofs.«157222_j61091614818664_2_alg».proof.Proof.Gen.ReferenceIdeal.Read
import proofs.«157222_j61091614818664_2_alg».proof.Proof.Gen.Pre_finite_inputs
import proofs.«157222_j61091614818664_2_alg».proof.Proof.KernelRun
import proofs.«157222_j61091614818664_2_alg».proof.Proof.WholeRun
import proofs.«157222_j61091614818664_2_alg».proof.Proof.Bridge
import Idealize.ShloMosaic.Adequacy
import Idealize.ShloMosaic.Init

noncomputable section

namespace Cert.Proof

open Idealize.ShloMosaic Idealize.SL.Sem

/-- The tiled program as printed runs and leaves its arguments unchanged. -/
theorem frame_k : Cert.frame_Kernel := fun m ρ _ => Cert.Kernel.Gen.frame m ρ

/-- The tiled program read on the extended reals runs and leaves its arguments unchanged. -/
theorem frame_ki : Cert.frame_KernelIdeal := fun m ρ _ => Cert.KernelIdeal.Gen.frame m ρ

/-- The whole-array program runs and leaves its arguments unchanged: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the tiled program was rewritten when it was read on the extended reals. -/
theorem preserves : Cert.preserves_Kernel_KernelIdeal := trivial

/-- From memories that agree on the arguments both programs end with the network function of the
    arguments in their result buffers: the tiled one by reading its result through the whole program,
    the whole-array one because its last stage is that function. -/
theorem algebraic : Cert.algebraic_KernelIdeal_ReferenceIdeal := by
  intro m ρ m' ρ' _ hagree
  refine ⟨fun c => Cert.Network.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Whole.result_at m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v118_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact (Cert.Network.result_eq_reference _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
